-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x2 : Shape := ⟨2, ![250000, 2]⟩
abbrev S2x4000000 : Shape := ⟨2, ![2, 4000000]⟩
abbrev S4000000x3 : Shape := ⟨2, ![4000000, 3]⟩
abbrev S7x32 : Shape := ⟨2, ![7, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S3x32 : Shape := ⟨2, ![3, 32]⟩
abbrev S_ : Shape := ⟨0, ![]⟩

class Facts : Prop where
  bcast_S_S250000x2 : S_.BroadcastsInDim S250000x2 (![] : Fin 0 → Fin S250000x2.rank)
  reducesTo_S250000x2_S_d0_1 : S250000x2.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  bcast_S_S7x32 : S_.BroadcastsInDim S7x32 (![] : Fin 0 → Fin S7x32.rank)
  reducesTo_S7x32_S_d0_1 : S7x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S3x32 : S_.BroadcastsInDim S3x32 (![] : Fin 0 → Fin S3x32.rank)
  reducesTo_S3x32_S_d0_1 : S3x32.ReducesTo [0, 1] S_

variable [Facts]

def fn_part3 {F : FTy → Type} [FloatOps F] (main_arg12 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S1 .f32) (main_arg9 : FVec F S3x32 .f32) (main_arg10 : FVec F S32 .f32) (main_arg11 : FVec F S32x1 .f32) (main_arg12 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S3x32 .f32 := Host.absf main_arg9
  let main_cst_14 : FVec F S_ .f32 := constant S_ .f32 0x7F800000#32
  let main_v40 : FVec F S3x32 .f32 := broadcastInDim S3x32 ![] bcast_S_S3x32 main_cst_14
  let main_v41 : IVec S3x32 1 := cmpf .olt main_v39 main_v40
  let main_c_15 : IVec S_ 1 := constantI S_ 1 1#1
  let main_v42 : IVec S_ 1 := (fun x v => Host.reduce IntOp.andi x v reducesTo_S3x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_v48 main_v49 main_v50

def fn_part1 {F : FTy → Type} [FloatOps F] (main_arg5 : FVec F S32x32 .f32) (main_arg6 : FVec F S32 .f32) (main_arg7 : FVec F S32x1 .f32) (main_arg8 : FVec F S1 .f32) (main_arg9 : FVec F S3x32 .f32) (main_arg10 : FVec F S32 .f32) (main_arg11 : FVec F S32x1 .f32) (main_arg12 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S250000x2 .f32) (main_arg1 : IVec S2x4000000 32) (main_arg2 : FVec F S4000000x3 .f32) (main_arg3 : FVec F S7x32 .f32) (main_arg4 : FVec F S32 .f32) (main_arg5 : FVec F S32x32 .f32) (main_arg6 : FVec F S32 .f32) (main_arg7 : FVec F S32x1 .f32) (main_arg8 : FVec F S1 .f32) (main_arg9 : FVec F S3x32 .f32) (main_arg10 : FVec F S32 .f32) (main_arg11 : FVec F S32x1 .f32) (main_arg12 : FVec F S1 .f32) : IVec S_ 1 :=
  let main_v0 : FVec F S250000x2 .f32 := Host.absf main_arg0
  let main_cst : FVec F S_ .f32 := constant S_ .f32 0x7F800000#32
  let main_v1 : FVec F S250000x2 .f32 := broadcastInDim S250000x2 ![] bcast_S_S250000x2 main_cst
  let main_v2 : IVec S250000x2 1 := cmpf .olt main_v0 main_v1
  let main_c : IVec S_ 1 := constantI S_ 1 1#1
  let main_v3 : IVec S_ 1 := (fun x v => Host.reduce IntOp.andi x v reducesTo_S250000x2_S_d0_1 h_S_) main_v2 main_c
  let main_v4 : FVec F S4000000x3 .f32 := Host.absf main_arg2
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S7x32 .f32 := Host.absf main_arg3
  let main_cst_2 : FVec F S_ .f32 := constant S_ .f32 0x7F800000#32
  let main_v10 : FVec F S7x32 .f32 := broadcastInDim S7x32 ![] bcast_S_S7x32 main_cst_2
  let main_v11 : IVec S7x32 1 := cmpf .olt main_v9 main_v10
  let main_c_3 : IVec S_ 1 := constantI S_ 1 1#1
  let main_v12 : IVec S_ 1 := (fun x v => Host.reduce IntOp.andi x v reducesTo_S7x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_v13 main_v16
-- ==== Kernel.lean ====
abbrev S250000x2 : Shape := ⟨2, ![250000, 2]⟩
abbrev S2x4000000 : Shape := ⟨2, ![2, 4000000]⟩
abbrev S4000000x3 : Shape := ⟨2, ![4000000, 3]⟩
abbrev S7x32 : Shape := ⟨2, ![7, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S3x32 : Shape := ⟨2, ![3, 32]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x2 : Shape := ⟨2, ![4000000, 2]⟩
abbrev S1x32 : Shape := ⟨2, ![1, 32]⟩
abbrev S1x1 : Shape := ⟨2, ![1, 1]⟩
abbrev S4000x2 : Shape := ⟨2, ![4000, 2]⟩
abbrev S4000x3 : Shape := ⟨2, ![4000, 3]⟩
abbrev S4000x1 : Shape := ⟨2, ![4000, 1]⟩
abbrev S4000x7 : Shape := ⟨2, ![4000, 7]⟩
abbrev S4000x32 : Shape := ⟨2, ![4000, 32]⟩
abbrev S250000x1 : Shape := ⟨2, ![250000, 1]⟩
abbrev S5000x2 : Shape := ⟨2, ![5000, 2]⟩
abbrev S5000x1 : Shape := ⟨2, ![5000, 1]⟩
abbrev S5000x3 : Shape := ⟨2, ![5000, 3]⟩
abbrev S5000x32 : Shape := ⟨2, ![5000, 32]⟩

abbrev nBuf : Space → Nat
  | .hbm => 46
  | .vmem => 24
  | .smem => 0
  | _ => 0

abbrev bufTy : (tb : Table) → Fin (tcTables nBuf tb) → BufTy
  | .hbm, ⟨0, _⟩ => ⟨S250000x2, .f32⟩
  | .hbm, ⟨1, _⟩ => ⟨S2x4000000, .i32⟩
  | .hbm, ⟨2, _⟩ => ⟨S4000000x3, .f32⟩
  | .hbm, ⟨3, _⟩ => ⟨S7x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S3x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x4000000, .i32⟩
  | .hbm, ⟨14, _⟩ => ⟨S4000000, .i32⟩
  | .hbm, ⟨15, _⟩ => ⟨S1x4000000, .i32⟩
  | .hbm, ⟨16, _⟩ => ⟨S4000000, .i32⟩
  | .hbm, ⟨17, _⟩ => ⟨S_, .i32⟩
  | .hbm, ⟨18, _⟩ => ⟨S4000000, .i32⟩
  | .hbm, ⟨19, _⟩ => ⟨S4000000, .i1⟩
  | .hbm, ⟨20, _⟩ => ⟨S_, .i32⟩
  | .hbm, ⟨21, _⟩ => ⟨S4000000, .i32⟩
  | .hbm, ⟨22, _⟩ => ⟨S4000000, .i32⟩
  | .hbm, ⟨23, _⟩ => ⟨S4000000, .i32⟩
  | .hbm, ⟨24, _⟩ => ⟨S4000000x1, .i32⟩
  | .hbm, ⟨25, _⟩ => ⟨S4000000x2, .f32⟩
  | .hbm, ⟨26, _⟩ => ⟨S_, .i32⟩
  | .hbm, ⟨27, _⟩ => ⟨S4000000, .i32⟩
  | .hbm, ⟨28, _⟩ => ⟨S4000000, .i1⟩
  | .hbm, ⟨29, _⟩ => ⟨S_, .i32⟩
  | .hbm, ⟨30, _⟩ => ⟨S4000000, .i32⟩
  | .hbm, ⟨31, _⟩ => ⟨S4000000, .i32⟩
  | .hbm, ⟨32, _⟩ => ⟨S4000000, .i32⟩
  | .hbm, ⟨33, _⟩ => ⟨S4000000x1, .i32⟩
  | .hbm, ⟨34, _⟩ => ⟨S4000000x2, .f32⟩
  | .hbm, ⟨35, _⟩ => ⟨S1x32, .f32⟩
  | .hbm, ⟨36, _⟩ => ⟨S1x32, .f32⟩
  | .hbm, ⟨37, _⟩ => ⟨S1x1, .f32⟩
  | .hbm, ⟨38, _⟩ => ⟨S4000000x1, .f32⟩
  | .hbm, ⟨39, _⟩ => ⟨S_, .f32⟩
  | .hbm, ⟨40, _⟩ => ⟨S250000x1, .f32⟩
  | .hbm, ⟨41, _⟩ => ⟨S4000000x1, .i32⟩
  | .hbm, ⟨42, _⟩ => ⟨S250000x1, .f32⟩
  | .hbm, ⟨43, _⟩ => ⟨S1x32, .f32⟩
  | .hbm, ⟨44, _⟩ => ⟨S1x1, .f32⟩
  | .hbm, ⟨45, _⟩ => ⟨S250000x1, .f32⟩
  | .local _ .vmem, ⟨0, _⟩ => ⟨S4000x2, .f32⟩
  | .local _ .vmem, ⟨1, _⟩ => ⟨S4000x2, .f32⟩
  | .local _ .vmem, ⟨2, _⟩ => ⟨S4000x2, .f32⟩
  | .local _ .vmem, ⟨3, _⟩ => ⟨S4000x2, .f32⟩
  | .local _ .vmem, ⟨4, _⟩ => ⟨S4000x3, .f32⟩
  | .local _ .vmem, ⟨5, _⟩ => ⟨S4000x3, .f32⟩
  | .local _ .vmem, ⟨6, _⟩ => ⟨S7x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S32x1, .f32⟩
  | .local _ .vmem, ⟨11, _⟩ => ⟨S1x1, .f32⟩
  | .local _ .vmem, ⟨12, _⟩ => ⟨S4000x1, .f32⟩
  | .local _ .vmem, ⟨13, _⟩ => ⟨S4000x1, .f32⟩
  | .local _ .vmem, ⟨14, _⟩ => ⟨S5000x2, .f32⟩
  | .local _ .vmem, ⟨15, _⟩ => ⟨S5000x2, .f32⟩
  | .local _ .vmem, ⟨16, _⟩ => ⟨S5000x1, .f32⟩
  | .local _ .vmem, ⟨17, _⟩ => ⟨S5000x1, .f32⟩
  | .local _ .vmem, ⟨18, _⟩ => ⟨S3x32, .f32⟩
  | .local _ .vmem, ⟨19, _⟩ => ⟨S1x32, .f32⟩
  | .local _ .vmem, ⟨20, _⟩ => ⟨S32x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S250000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  shapeCasts_S32_S1x32 : S32.ShapeCasts S1x32
  shapeCasts_S1_S1x1 : S1.ShapeCasts S1x1
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  inb_S4000x3_S4000x3_0_0 : ∀ a, (![0, 0] : Fin 2 → Nat) a + S4000x3.size a ≤ S4000x3.size a
  h_S4000x3 : 0 < S4000x3.numel
  concatenates_S4000x1_S4000x1_S4000x1_S4000x1_S4000x3_S4000x7_d1 : Shape.Concatenates [S4000x1, S4000x1, S4000x1, S4000x1, S4000x3] S4000x7 1
  bitsLt_bf16_f32 : FTy.bits .bf16 < FTy.bits .f32
  inb_S7x32_S7x32_0_0 : ∀ a, (![0, 0] : Fin 2 → Nat) a + S7x32.size a ≤ S7x32.size a
  h_S7x32 : 0 < S7x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  bcast_S_S250000x1 : S_.BroadcastsInDim S250000x1 (![] : Fin 0 → Fin S250000x1.rank)
  inb_S5000x2_S5000x2_0_0 : ∀ a, (![0, 0] : Fin 2 → Nat) a + S5000x2.size a ≤ S5000x2.size a
  h_S5000x2 : 0 < S5000x2.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  slices_S5000x2_o0_0_S5000x1 : S5000x2.Slices ![0, 0] S5000x1
  concatenates_S5000x2_S5000x1_S5000x3_d1 : Shape.Concatenates [S5000x2, S5000x1] S5000x3 1
  inb_S3x32_S3x32_0_0 : ∀ a, (![0, 0] : Fin 2 → Nat) a + S3x32.size a ≤ S3x32.size a
  h_S3x32 : 0 < S3x32.numel
  broadcasts_S1x32_S5000x32 : S1x32.Broadcasts S5000x32
  broadcasts_S1x1_S5000x1 : S1x1.Broadcasts S5000x1
  gather_S250000x2_S4000000x1_S4000000x2_1_0_n_n_0_1_12_wf : GatherDims.WF S250000x2 S4000000x1 S4000000x2 [1] [0] [] [0] [] 1 ![1, 2]
  dot_S4000x7_S7x32_S4000x32_1_0_0_1_n_n_wf : DotDims.WF S4000x7 S7x32 S4000x32 [1] [0] [0] [1] [] []
  dot_S4000x32_S32x32_S4000x32_1_0_0_1_n_n_wf : DotDims.WF S4000x32 S32x32 S4000x32 [1] [0] [0] [1] [] []
  dot_S4000x32_S32x1_S4000x1_1_0_0_1_n_n_wf : DotDims.WF S4000x32 S32x1 S4000x1 [1] [0] [0] [1] [] []
  scatter_S250000x1_S4000000x1_S4000000x1_1_0_0_1_wf : ScatterDims.WF S250000x1 S4000000x1 S4000000x1 [1] [0] [0] 1
  dot_S5000x3_S3x32_S5000x32_1_0_0_1_n_n_wf : DotDims.WF S5000x3 S3x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S4000000x2.size a
  hwx0_0 : ∀ i : grid0.Coords, EltTy.bits .f32 = 32 ∨ (Rect.block (s := S4000000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x2.size a ≤ S4000000x2.size a
  hwx0_1 : ∀ i : grid0.Coords, EltTy.bits .f32 = 32 ∨ (Rect.block (s := S4000000x2) S4000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S4000000x3.size a
  hwx0_2 : ∀ i : grid0.Coords, EltTy.bits .f32 = 32 ∨ (Rect.block (s := S4000000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x32.size a ≤ S7x32.size a
  hwx0_3 : ∀ i : grid0.Coords, EltTy.bits .f32 = 32 ∨ (Rect.block (s := S7x32) S7x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S4000000x1.size a
  hwx0_9 : ∀ i : grid0.Coords, EltTy.bits .f32 = 32 ∨ (Rect.block (s := S4000000x1) S4000x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S250000x2.size a
  hwx1_0 : ∀ i : grid1.Coords, EltTy.bits .f32 = 32 ∨ (Rect.block (s := S250000x2) S5000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S250000x1.size a
  hwx1_1 : ∀ i : grid1.Coords, EltTy.bits .f32 = 32 ∨ (Rect.block (s := S250000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x32.size a ≤ S3x32.size a
  hwx1_2 : ∀ i : grid1.Coords, EltTy.bits .f32 = 32 ∨ (Rect.block (s := S3x32) S3x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S250000x1.size a
  hwx1_6 : ∀ i : grid1.Coords, EltTy.bits .f32 = 32 ∨ (Rect.block (s := S250000x1) S5000x1.size (cc1_transform_6 i) (hinb1_6 i)).WholeWords (EltTy.packing .f32)

variable [Facts₀]

def gather_S250000x2_S4000000x1_S4000000x2_1_0_n_n_0_1_12 : GatherDims S250000x2 S4000000x1 S4000000x2 where
  offsetDims := [1]
  collapsedSliceDims := [0]
  operandBatchingDims := []
  startIndicesBatchingDims := []
  startIndexMap := [0]
  indexVectorDim := 1
  sliceSizes := ![1, 2]
  wf := gather_S250000x2_S4000000x1_S4000000x2_1_0_n_n_0_1_12_wf
def dot_S4000x7_S7x32_S4000x32_1_0_0_1_n_n : DotDims S4000x7 S7x32 S4000x32 where
  lhsContracting := [1]
  rhsContracting := [0]
  lhsNonContracting := [0]
  rhsNonContracting := [1]
  lhsBatch := []
  rhsBatch := []
  wf := dot_S4000x7_S7x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf
def scatter_S250000x1_S4000000x1_S4000000x1_1_0_0_1 : ScatterDims S250000x1 S4000000x1 S4000000x1 where
  updateWindowDims := [1]
  insertedWindowDims := [0]
  scatterDimsToOperandDims := [0]
  indexVectorDim := 1
  wf := scatter_S250000x1_S4000000x1_S4000000x1_1_0_0_1_wf
def dot_S5000x3_S3x32_S5000x32_1_0_0_1_n_n : DotDims S5000x3 S3x32 S5000x32 where
  lhsContracting := [1]
  rhsContracting := [0]
  lhsNonContracting := [0]
  rhsNonContracting := [1]
  lhsBatch := []
  rhsBatch := []
  wf := dot_S5000x3_S3x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v10) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S4000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S3x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S250000x2 : Shape := ⟨2, ![250000, 2]⟩
abbrev S2x4000000 : Shape := ⟨2, ![2, 4000000]⟩
abbrev S4000000x3 : Shape := ⟨2, ![4000000, 3]⟩
abbrev S7x32 : Shape := ⟨2, ![7, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S3x32 : Shape := ⟨2, ![3, 32]⟩
abbrev S250000x1 : Shape := ⟨2, ![250000, 1]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x7 : Shape := ⟨2, ![4000000, 7]⟩
abbrev S4000000x32 : Shape := ⟨2, ![4000000, 32]⟩
abbrev S1x32 : Shape := ⟨2, ![1, 32]⟩
abbrev S1x1 : Shape := ⟨2, ![1, 1]⟩
abbrev S250000x3 : Shape := ⟨2, ![250000, 3]⟩
abbrev S250000x32 : Shape := ⟨2, ![250000, 32]⟩

abbrev nBuf : Space → Nat
  | .hbm => 94
  | .vmem => 0
  | .smem => 0
  | _ => 0

abbrev bufTy : (tb : Table) → Fin (tcTables nBuf tb) → BufTy
  | .hbm, ⟨0, _⟩ => ⟨S250000x2, .f32⟩
  | .hbm, ⟨1, _⟩ => ⟨S2x4000000, .i32⟩
  | .hbm, ⟨2, _⟩ => ⟨S4000000x3, .f32⟩
  | .hbm, ⟨3, _⟩ => ⟨S7x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S3x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S250000x1, .f32⟩
  | .hbm, ⟨14, _⟩ => ⟨S250000x1, .f32⟩
  | .hbm, ⟨15, _⟩ => ⟨S1x4000000, .i32⟩
  | .hbm, ⟨16, _⟩ => ⟨S4000000, .i32⟩
  | .hbm, ⟨17, _⟩ => ⟨S1x4000000, .i32⟩
  | .hbm, ⟨18, _⟩ => ⟨S4000000, .i32⟩
  | .hbm, ⟨19, _⟩ => ⟨S_, .i32⟩
  | .hbm, ⟨20, _⟩ => ⟨S4000000, .i32⟩
  | .hbm, ⟨21, _⟩ => ⟨S4000000, .i1⟩
  | .hbm, ⟨22, _⟩ => ⟨S_, .i32⟩
  | .hbm, ⟨23, _⟩ => ⟨S4000000, .i32⟩
  | .hbm, ⟨24, _⟩ => ⟨S4000000, .i32⟩
  | .hbm, ⟨25, _⟩ => ⟨S4000000, .i32⟩
  | .hbm, ⟨26, _⟩ => ⟨S4000000x1, .i32⟩
  | .hbm, ⟨27, _⟩ => ⟨S4000000x1, .f32⟩
  | .hbm, ⟨28, _⟩ => ⟨S_, .i32⟩
  | .hbm, ⟨29, _⟩ => ⟨S4000000, .i32⟩
  | .hbm, ⟨30, _⟩ => ⟨S4000000, .i1⟩
  | .hbm, ⟨31, _⟩ => ⟨S_, .i32⟩
  | .hbm, ⟨32, _⟩ => ⟨S4000000, .i32⟩
  | .hbm, ⟨33, _⟩ => ⟨S4000000, .i32⟩
  | .hbm, ⟨34, _⟩ => ⟨S4000000, .i32⟩
  | .hbm, ⟨35, _⟩ => ⟨S4000000x1, .i32⟩
  | .hbm, ⟨36, _⟩ => ⟨S4000000x1, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000x1, .f32⟩
  | .hbm, ⟨46, _⟩ => ⟨S_, .i32⟩
  | .hbm, ⟨47, _⟩ => ⟨S4000000, .i32⟩
  | .hbm, ⟨48, _⟩ => ⟨S4000000, .i1⟩
  | .hbm, ⟨49, _⟩ => ⟨S_, .i32⟩
  | .hbm, ⟨50, _⟩ => ⟨S4000000, .i32⟩
  | .hbm, ⟨51, _⟩ => ⟨S4000000, .i32⟩
  | .hbm, ⟨52, _⟩ => ⟨S4000000, .i32⟩
  | .hbm, ⟨53, _⟩ => ⟨S4000000x1, .i32⟩
  | .hbm, ⟨54, _⟩ => ⟨S4000000x1, .f32⟩
  | .hbm, ⟨55, _⟩ => ⟨S4000000x7, .f32⟩
  | .hbm, ⟨56, _⟩ => ⟨S4000000x32, .f32⟩
  | .hbm, ⟨57, _⟩ => ⟨S1x32, .f32⟩
  | .hbm, ⟨58, _⟩ => ⟨S4000000x32, .f32⟩
  | .hbm, ⟨59, _⟩ => ⟨S4000000x32, .f32⟩
  | .hbm, ⟨60, _⟩ => ⟨S_, .f32⟩
  | .hbm, ⟨61, _⟩ => ⟨S4000000x32, .f32⟩
  | .hbm, ⟨62, _⟩ => ⟨S4000000x32, .f32⟩
  | .hbm, ⟨63, _⟩ => ⟨S4000000x32, .f32⟩
  | .hbm, ⟨64, _⟩ => ⟨S1x32, .f32⟩
  | .hbm, ⟨65, _⟩ => ⟨S4000000x32, .f32⟩
  | .hbm, ⟨66, _⟩ => ⟨S4000000x32, .f32⟩
  | .hbm, ⟨67, _⟩ => ⟨S_, .f32⟩
  | .hbm, ⟨68, _⟩ => ⟨S4000000x32, .f32⟩
  | .hbm, ⟨69, _⟩ => ⟨S4000000x32, .f32⟩
  | .hbm, ⟨70, _⟩ => ⟨S4000000x1, .f32⟩
  | .hbm, ⟨71, _⟩ => ⟨S1x1, .f32⟩
  | .hbm, ⟨72, _⟩ => ⟨S4000000x1, .f32⟩
  | .hbm, ⟨73, _⟩ => ⟨S4000000x1, .f32⟩
  | .hbm, ⟨74, _⟩ => ⟨S_, .f32⟩
  | .hbm, ⟨75, _⟩ => ⟨S250000x1, .f32⟩
  | .hbm, ⟨76, _⟩ => ⟨S4000000x1, .i32⟩
  | .hbm, ⟨77, _⟩ => ⟨S250000x1, .f32⟩
  | .hbm, ⟨78, _⟩ => ⟨S250000x3, .f32⟩
  | .hbm, ⟨79, _⟩ => ⟨S250000x32, .f32⟩
  | .hbm, ⟨80, _⟩ => ⟨S1x32, .f32⟩
  | .hbm, ⟨81, _⟩ => ⟨S250000x32, .f32⟩
  | .hbm, ⟨82, _⟩ => ⟨S250000x32, .f32⟩
  | .hbm, ⟨83, _⟩ => ⟨S_, .f32⟩
  | .hbm, ⟨84, _⟩ => ⟨S250000x32, .f32⟩
  | .hbm, ⟨85, _⟩ => ⟨S250000x32, .f32⟩
  | .hbm, ⟨86, _⟩ => ⟨S250000x1, .f32⟩
  | .hbm, ⟨87, _⟩ => ⟨S1x1, .f32⟩
  | .hbm, ⟨88, _⟩ => ⟨S250000x1, .f32⟩
  | .hbm, ⟨89, _⟩ => ⟨S250000x1, .f32⟩
  | .hbm, ⟨90, _⟩ => ⟨S250000x1, .f32⟩
  | .hbm, ⟨91, _⟩ => ⟨S_, .f32⟩
  | .hbm, ⟨92, _⟩ => ⟨S250000x1, .f32⟩
  | .hbm, ⟨93, _⟩ => ⟨S250000x1, .f32⟩
  | _, _ => ⟨S250000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call0_cst : Ref sig .tc := ⟨.hbm, 60, rfl⟩
abbrev main_call0_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_cst : Ref sig .tc := ⟨.hbm, 67, rfl⟩
abbrev main_call1_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call2_cst : Ref sig .tc := ⟨.hbm, 83, rfl⟩
abbrev main_call2_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  slices_S250000x2_S250000x1_0_0 : S250000x2.Slices ![0, 0] S250000x1
  slices_S250000x2_S250000x1_0_1 : S250000x2.Slices ![0, 1] S250000x1
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x1_S4000000x3_S4000000x7_d1 : Shape.Concatenates [S4000000x1, S4000000x1, S4000000x1, S4000000x1, S4000000x3] S4000000x7 1
  bcast_S32_S1x32_1 : S32.BroadcastsInDim S1x32 (![1] : Fin 1 → Fin S1x32.rank)
  bcast_S1x32_S4000000x32_0_1 : S1x32.BroadcastsInDim S4000000x32 (![0, 1] : Fin 2 → Fin S4000000x32.rank)
  bcast_S_S4000000x32 : S_.BroadcastsInDim S4000000x32 (![] : Fin 0 → Fin S4000000x32.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  bcast_S_S250000x1 : S_.BroadcastsInDim S250000x1 (![] : Fin 0 → Fin S250000x1.rank)
  concatenates_S250000x1_S250000x1_S250000x1_S250000x3_d1 : Shape.Concatenates [S250000x1, S250000x1, S250000x1] S250000x3 1
  bcast_S1x32_S250000x32_0_1 : S1x32.BroadcastsInDim S250000x32 (![0, 1] : Fin 2 → Fin S250000x32.rank)
  bcast_S_S250000x32 : S_.BroadcastsInDim S250000x32 (![] : Fin 0 → Fin S250000x32.rank)
  bcast_S1x1_S250000x1_0_1 : S1x1.BroadcastsInDim S250000x1 (![0, 1] : Fin 2 → Fin S250000x1.rank)
  gather_S250000x1_S4000000x1_S4000000x1_1_0_n_n_0_1_11_wf : GatherDims.WF S250000x1 S4000000x1 S4000000x1 [1] [0] [] [0] [] 1 ![1, 1]
  dot_S4000000x7_S7x32_S4000000x32_1_0_0_1_n_n_wf : DotDims.WF S4000000x7 S7x32 S4000000x32 [1] [0] [0] [1] [] []
  dot_S4000000x32_S32x32_S4000000x32_1_0_0_1_n_n_wf : DotDims.WF S4000000x32 S32x32 S4000000x32 [1] [0] [0] [1] [] []
  dot_S4000000x32_S32x1_S4000000x1_1_0_0_1_n_n_wf : DotDims.WF S4000000x32 S32x1 S4000000x1 [1] [0] [0] [1] [] []
  scatter_S250000x1_S4000000x1_S4000000x1_1_0_0_1_wf : ScatterDims.WF S250000x1 S4000000x1 S4000000x1 [1] [0] [0] 1
  dot_S250000x3_S3x32_S250000x32_1_0_0_1_n_n_wf : DotDims.WF S250000x3 S3x32 S250000x32 [1] [0] [0] [1] [] []
  dot_S250000x32_S32x1_S250000x1_1_0_0_1_n_n_wf : DotDims.WF S250000x32 S32x1 S250000x1 [1] [0] [0] [1] [] []

variable [Facts₀]

def gather_S250000x1_S4000000x1_S4000000x1_1_0_n_n_0_1_11 : GatherDims S250000x1 S4000000x1 S4000000x1 where
  offsetDims := [1]
  collapsedSliceDims := [0]
  operandBatchingDims := []
  startIndicesBatchingDims := []
  startIndexMap := [0]
  indexVectorDim := 1
  sliceSizes := ![1, 1]
  wf := gather_S250000x1_S4000000x1_S4000000x1_1_0_n_n_0_1_11_wf
def dot_S4000000x7_S7x32_S4000000x32_1_0_0_1_n_n : DotDims S4000000x7 S7x32 S4000000x32 where
  lhsContracting := [1]
  rhsContracting := [0]
  lhsNonContracting := [0]
  rhsNonContracting := [1]
  lhsBatch := []
  rhsBatch := []
  wf := dot_S4000000x7_S7x32_S4000000x32_1_0_0_1_n_n_wf
def dot_S4000000x32_S32x32_S4000000x32_1_0_0_1_n_n : DotDims S4000000x32 S32x32 S4000000x32 where
  lhsContracting := [1]
  rhsContracting := [0]
  lhsNonContracting := [0]
  rhsNonContracting := [1]
  lhsBatch := []
  rhsBatch := []
  wf := dot_S4000000x32_S32x32_S4000000x32_1_0_0_1_n_n_wf
def dot_S4000000x32_S32x1_S4000000x1_1_0_0_1_n_n : DotDims S4000000x32 S32x1 S4000000x1 where
  lhsContracting := [1]
  rhsContracting := [0]
  lhsNonContracting := [0]
  rhsNonContracting := [1]
  lhsBatch := []
  rhsBatch := []
  wf := dot_S4000000x32_S32x1_S4000000x1_1_0_0_1_n_n_wf
def scatter_S250000x1_S4000000x1_S4000000x1_1_0_0_1 : ScatterDims S250000x1 S4000000x1 S4000000x1 where
  updateWindowDims := [1]
  insertedWindowDims := [0]
  scatterDimsToOperandDims := [0]
  indexVectorDim := 1
  wf := scatter_S250000x1_S4000000x1_S4000000x1_1_0_0_1_wf
def dot_S250000x3_S3x32_S250000x32_1_0_0_1_n_n : DotDims S250000x3 S3x32 S250000x32 where
  lhsContracting := [1]
  rhsContracting := [0]
  lhsNonContracting := [0]
  rhsNonContracting := [1]
  lhsBatch := []
  rhsBatch := []
  wf := dot_S250000x3_S3x32_S250000x32_1_0_0_1_n_n_wf
def dot_S250000x32_S32x1_S250000x1_1_0_0_1_n_n : DotDims S250000x32 S32x1 S250000x1 where
  lhsContracting := [1]
  rhsContracting := [0]
  lhsNonContracting := [0]
  rhsNonContracting := [1]
  lhsBatch := []
  rhsBatch := []
  wf := dot_S250000x32_S32x1_S250000x1_1_0_0_1_n_n_wf

class Facts : Prop extends Facts₀ where

variable [Facts]
-- ==== Proof.KernelRun.lean ====
/-
  The idealized kernel's run with its result named.

  @main is four segments: the host operations before the first pallas_call (index normalisation, the two row gathers, the bias
  reshapes), the edge pipeline, the host operations between the calls (the zero column, the scatter-add of the messages into their
  receivers, two more reshapes), the node pipeline. The buffers' contents at each boundary are a fold from the launch memory; at
  the last boundary every unscoped buffer holds that fold's value, and the final state is read against it. The frame claim
  reads only the argument arrays there; here the result buffer is read too, so that its value is on record:
  every weakly fair execution terminates, faultless, with the result buffer at the last boundary's contents and the
  arguments as launched.
-/
import proofs.«116314_j14920716387062_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments, the last thread state read against the final state at the result buffer as well as at
    the arguments. -/
theorem run_named : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunValue

end
-- ==== Proof.KernelHost.lean ====
/-
  The buffers' contents at the two pipelines' entries, as terms of the launch memory (the idealized kernel).

  Before the edge pipeline @main slices the edge-index array into its sender row and its receiver row, turns each into a column
  of start indices (a negative index has 250000 added), gathers the node-feature rows the two columns name, and reshapes the
  three edge-perceptron biases to one-row matrices. Between the pipelines it scatter-adds the message column into a zero column
  at the raw receiver indices and reshapes the two node-perceptron biases. No operation writes an argument array, and the edge
  pipeline writes only its result, so every other buffer is read back to the launch memory.
-/
import proofs.«116314_j14920716387062_1_alg».proof.Proof.Gen.KernelIdeal.Frame
import Idealize.ShloMosaic.PureOps.Ideal

set_option maxRecDepth 16384

noncomputable section

namespace Cert.KernelIdeal.HostValue

open Idealize.ShloMosaic Idealize.ShloMosaic.TcCoe Idealize.ShloMosaic.Tactic Idealize.SL.Sem
open Idealize.ShloMosaic.Pipeline (Dat Cfg Window)
open Cert.KernelIdeal Cert.KernelIdeal.Gen

/-- A row of the edge-index array as a vector of 4000000 indices. -/
def senders (a1 : IVec S2x4000000 32) : IVec S4000000 32 :=
  shapeCast S4000000 (extractStridedSlice S1x4000000 ![0, 0] a1 slices_S2x4000000_S1x4000000_0_0) shapeCasts_S1x4000000_S4000000
def receivers (a1 : IVec S2x4000000 32) : IVec S4000000 32 :=
  shapeCast S4000000 (extractStridedSlice S1x4000000 ![1, 0] a1 slices_S2x4000000_S1x4000000_1_0) shapeCasts_S1x4000000_S4000000

/-- A vector of indices as a column of start indices, a negative index counted from the end (250000 added). -/
def startColumn (v : IVec S4000000 32) : IVec S4000000x1 32 :=
  broadcastInDim S4000000x1 ![0] bcast_S4000000_S4000000x1_0
    (select (cmpi .slt v (broadcastInDim S4000000 ![] bcast_S_S4000000 (constantI S_ 32 0#32)))
      (addi v (broadcastInDim S4000000 ![] bcast_S_S4000000 (constantI S_ 32 250000#32))) v)

/-- The scatter-add of a message column into the zero column at the raw receiver indices. -/
def scat (a1 : IVec S2x4000000 32) (u : FVec Ideal S4000000x1 .f32) : FVec Ideal S250000x1 .f32 :=
  Host.scatterAdd scatter_S250000x1_S4000000x1_S4000000x1_1_0_0_1
    (broadcastInDim S250000x1 ![] bcast_S_S250000x1 (constant (F := Ideal) S_ .f32 0x00000000#32))
    (broadcastInDim S4000000x1 ![0] bcast_S4000000_S4000000x1_0 (receivers a1)) u

variable (m : (ℓ : Loc nD τ sig) → Buf (Elt Ideal) ℓ) (ρ : Dev nD → PrngReg)

/-- A buffer no operation of the first stretch writes holds its launch contents at the edge pipeline's entry. -/
local macro "kept0" : tactic => `(tactic| (
  refine (StableHlo.after_of_forall_not_mem _ _ (List.forall_iff_forall_mem.mp ?_)).trans rfl
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- A buffer no operation of the second stretch writes holds at the node pipeline's entry what it held at the edge pipeline's exit. -/
local macro "kept1" : tactic => `(tactic| (
  refine StableHlo.after_of_forall_not_mem _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ## At the edge pipeline's entry -/

theorem entry0_arg0 (c : Dev nD) : W1 m ρ c (Proc.devRef .tc main_arg0) = m ((c : Thread nD τ).loc main_arg0) := by kept0
theorem entry0_arg2 (c : Dev nD) : W1 m ρ c (Proc.devRef .tc main_arg2) = m ((c : Thread nD τ).loc main_arg2) := by kept0
theorem entry0_arg3 (c : Dev nD) : W1 m ρ c (Proc.devRef .tc main_arg3) = m ((c : Thread nD τ).loc main_arg3) := by kept0
theorem entry0_arg5 (c : Dev nD) : W1 m ρ c (Proc.devRef .tc main_arg5) = m ((c : Thread nD τ).loc main_arg5) := by kept0
theorem entry0_arg7 (c : Dev nD) : W1 m ρ c (Proc.devRef .tc main_arg7) = m ((c : Thread nD τ).loc main_arg7) := by kept0
theorem entry0_arg9 (c : Dev nD) : W1 m ρ c (Proc.devRef .tc main_arg9) = m ((c : Thread nD τ).loc main_arg9) := by kept0
theorem entry0_arg10 (c : Dev nD) : W1 m ρ c (Proc.devRef .tc main_arg10) = m ((c : Thread nD τ).loc main_arg10) := by kept0
theorem entry0_arg11 (c : Dev nD) : W1 m ρ c (Proc.devRef .tc main_arg11) = m ((c : Thread nD τ).loc main_arg11) := by kept0
theorem entry0_arg12 (c : Dev nD) : W1 m ρ c (Proc.devRef .tc main_arg12) = m ((c : Thread nD τ).loc main_arg12) := by kept0

/-- The receiver indices, as the scatter-add will read them. -/
theorem entry0_v3 (c : Dev nD) :
    (W1 m ρ c (Proc.devRef .tc main_v3) : S4000000.Idx → BitVec 32) = receivers (m ((c : Thread nD τ).loc main_arg1)) := by
  show StableHlo.after hostOps0 _ (Proc.devRef .tc main_v3) = _
  after_results
  rfl

/-- The gathered sender rows. -/
theorem entry0_v10 (c : Dev nD) :
    (W1 m ρ c (Proc.devRef .tc main_v10) : S4000000x2.Idx → EReal)
      = Host.gather gather_S250000x2_S4000000x1_S4000000x2_1_0_n_n_0_1_12 (m ((c : Thread nD τ).loc main_arg0))
          (startColumn (senders (m ((c : Thread nD τ).loc main_arg1)))) := by
  show StableHlo.after hostOps0 _ (Proc.devRef .tc main_v10) = _
  after_results
  rfl

/-- The gathered receiver rows. -/
theorem entry0_v17 (c : Dev nD) :
    (W1 m ρ c (Proc.devRef .tc main_v17) : S4000000x2.Idx → EReal)
      = Host.gather gather_S250000x2_S4000000x1_S4000000x2_1_0_n_n_0_1_12 (m ((c : Thread nD τ).loc main_arg0))
          (startColumn (receivers (m ((c : Thread nD τ).loc main_arg1)))) := by
  show StableHlo.after hostOps0 _ (Proc.devRef .tc main_v17) = _
  after_results
  rfl

/-- The edge perceptron's biases as one-row matrices. -/
theorem entry0_v18 (c : Dev nD) :
    (W1 m ρ c (Proc.devRef .tc main_v18) : S1x32.Idx → EReal) = shapeCast S1x32 (m ((c : Thread nD τ).loc main_arg4)) shapeCasts_S32_S1x32 := by
  show StableHlo.after hostOps0 _ (Proc.devRef .tc main_v18) = _
  after_results
  rfl
theorem entry0_v19 (c : Dev nD) :
    (W1 m ρ c (Proc.devRef .tc main_v19) : S1x32.Idx → EReal) = shapeCast S1x32 (m ((c : Thread nD τ).loc main_arg6)) shapeCasts_S32_S1x32 := by
  show StableHlo.after hostOps0 _ (Proc.devRef .tc main_v19) = _
  after_results
  rfl
theorem entry0_v20 (c : Dev nD) :
    (W1 m ρ c (Proc.devRef .tc main_v20) : S1x1.Idx → EReal) = shapeCast S1x1 (m ((c : Thread nD τ).loc main_arg8)) shapeCasts_S1_S1x1 := by
  show StableHlo.after hostOps0 _ (Proc.devRef .tc main_v20) = _
  after_results
  rfl

/-! ## At the edge pipeline's exit -/

/-- The message column is what the edge pipeline's write-backs leave. -/
theorem exit0_v21 (c : Dev nD) : W2 m ρ c (Proc.devRef .tc main_v21) = (dat0 (V1 m ρ) c).arrAt 9 cfg0.N := W2_arr m ρ c 9

theorem exit0_v3 (c : Dev nD) :
    (W2 m ρ c (Proc.devRef .tc main_v3) : S4000000.Idx → BitVec 32) = receivers (m ((c : Thread nD τ).loc main_arg1)) :=
  (W2_of_ne m ρ c main_v3 (by decide)).trans (entry0_v3 m ρ c)
theorem exit0_arg0 (c : Dev nD) : W2 m ρ c (Proc.devRef .tc main_arg0) = m ((c : Thread nD τ).loc main_arg0) :=
  (W2_of_ne m ρ c main_arg0 (by decide)).trans (entry0_arg0 m ρ c)
theorem exit0_arg9 (c : Dev nD) : W2 m ρ c (Proc.devRef .tc main_arg9) = m ((c : Thread nD τ).loc main_arg9) :=
  (W2_of_ne m ρ c main_arg9 (by decide)).trans (entry0_arg9 m ρ c)
theorem exit0_arg10 (c : Dev nD) : W2 m ρ c (Proc.devRef .tc main_arg10) = m ((c : Thread nD τ).loc main_arg10) :=
  (W2_of_ne m ρ c main_arg10 (by decide)).trans (entry0_arg10 m ρ c)
theorem exit0_arg11 (c : Dev nD) : W2 m ρ c (Proc.devRef .tc main_arg11) = m ((c : Thread nD τ).loc main_arg11) :=
  (W2_of_ne m ρ c main_arg11 (by decide)).trans (entry0_arg11 m ρ c)
theorem exit0_arg12 (c : Dev nD) : W2 m ρ c (Proc.devRef .tc main_arg12) = m ((c : Thread nD τ).loc main_arg12) :=
  (W2_of_ne m ρ c main_arg12 (by decide)).trans (entry0_arg12 m ρ c)

/-! ## At the node pipeline's entry -/

theorem entry1_arg0 (c : Dev nD) : W3 m ρ c (Proc.devRef .tc main_arg0) = m ((c : Thread nD τ).loc main_arg0) :=
  (by kept1 : W3 m ρ c (Proc.devRef .tc main_arg0) = W2 m ρ c (Proc.devRef .tc main_arg0)).trans (exit0_arg0 m ρ c)
theorem entry1_arg9 (c : Dev nD) : W3 m ρ c (Proc.devRef .tc main_arg9) = m ((c : Thread nD τ).loc main_arg9) :=
  (by kept1 : W3 m ρ c (Proc.devRef .tc main_arg9) = W2 m ρ c (Proc.devRef .tc main_arg9)).trans (exit0_arg9 m ρ c)
theorem entry1_arg11 (c : Dev nD) : W3 m ρ c (Proc.devRef .tc main_arg11) = m ((c : Thread nD τ).loc main_arg11) :=
  (by kept1 : W3 m ρ c (Proc.devRef .tc main_arg11) = W2 m ρ c (Proc.devRef .tc main_arg11)).trans (exit0_arg11 m ρ c)

/-- The summed messages: the scatter-add of the edge pipeline's message column. -/
theorem entry1_v24 (c : Dev nD) :
    (W3 m ρ c (Proc.devRef .tc main_v24) : S250000x1.Idx → EReal)
      = scat (m ((c : Thread nD τ).loc main_arg1)) ((dat0 (V1 m ρ) c).arrAt 9 cfg0.N) := by
  have e : (W3 m ρ c (Proc.devRef .tc main_v24) : S250000x1.Idx → EReal)
      = Host.scatterAdd scatter_S250000x1_S4000000x1_S4000000x1_1_0_0_1
          (broadcastInDim S250000x1 ![] bcast_S_S250000x1 (constant (F := Ideal) S_ .f32 0x00000000#32))
          (broadcastInDim S4000000x1 ![0] bcast_S4000000_S4000000x1_0 (W2 m ρ c (Proc.devRef .tc main_v3)))
          (W2 m ρ c (Proc.devRef .tc main_v21)) := by
    show StableHlo.after hostOps1 _ (Proc.devRef .tc main_v24) = _
    after_results
  rw [e, exit0_v3, exit0_v21]
  rfl

/-- The node perceptron's biases as one-row matrices. -/
theorem entry1_v25 (c : Dev nD) :
    (W3 m ρ c (Proc.devRef .tc main_v25) : S1x32.Idx → EReal) = shapeCast S1x32 (m ((c : Thread nD τ).loc main_arg10)) shapeCasts_S32_S1x32 := by
  have e : (W3 m ρ c (Proc.devRef .tc main_v25) : S1x32.Idx → EReal)
      = shapeCast S1x32 (W2 m ρ c (Proc.devRef .tc main_arg10)) shapeCasts_S32_S1x32 := by
    show StableHlo.after hostOps1 _ (Proc.devRef .tc main_v25) = _
    after_results
    rfl
  rw [e, exit0_arg10]
theorem entry1_v26 (c : Dev nD) :
    (W3 m ρ c (Proc.devRef .tc main_v26) : S1x1.Idx → EReal) = shapeCast S1x1 (m ((c : Thread nD τ).loc main_arg12)) shapeCasts_S1_S1x1 := by
  have e : (W3 m ρ c (Proc.devRef .tc main_v26) : S1x1.Idx → EReal)
      = shapeCast S1x1 (W2 m ρ c (Proc.devRef .tc main_arg12)) shapeCasts_S1_S1x1 := by
    show StableHlo.after hostOps1 _ (Proc.devRef .tc main_v26) = _
    after_results
    rfl
  rw [e, exit0_arg12]

/-! ## The same facts, as the pipelines' proof data read their arrays -/

theorem edge_features0 (c : Dev nD) : (V1 m ρ c main_v10 : S4000000x2.Idx → EReal)
    = Host.gather gather_S250000x2_S4000000x1_S4000000x2_1_0_n_n_0_1_12 (m ((c : Thread nD τ).loc main_arg0))
        (startColumn (senders (m ((c : Thread nD τ).loc main_arg1)))) := entry0_v10 m ρ c
theorem edge_features1 (c : Dev nD) : (V1 m ρ c main_v17 : S4000000x2.Idx → EReal)
    = Host.gather gather_S250000x2_S4000000x1_S4000000x2_1_0_n_n_0_1_12 (m ((c : Thread nD τ).loc main_arg0))
        (startColumn (receivers (m ((c : Thread nD τ).loc main_arg1)))) := entry0_v17 m ρ c
theorem edge_attrs (c : Dev nD) : V1 m ρ c main_arg2 = m ((c : Thread nD τ).loc main_arg2) := entry0_arg2 m ρ c
theorem edge_w0 (c : Dev nD) : V1 m ρ c main_arg3 = m ((c : Thread nD τ).loc main_arg3) := entry0_arg3 m ρ c
theorem edge_w1 (c : Dev nD) : V1 m ρ c main_arg5 = m ((c : Thread nD τ).loc main_arg5) := entry0_arg5 m ρ c
theorem edge_w2 (c : Dev nD) : V1 m ρ c main_arg7 = m ((c : Thread nD τ).loc main_arg7) := entry0_arg7 m ρ c
theorem edge_b0 (c : Dev nD) : (V1 m ρ c main_v18 : S1x32.Idx → EReal)
    = shapeCast S1x32 (m ((c : Thread nD τ).loc main_arg4)) shapeCasts_S32_S1x32 := entry0_v18 m ρ c
theorem edge_b1 (c : Dev nD) : (V1 m ρ c main_v19 : S1x32.Idx → EReal)
    = shapeCast S1x32 (m ((c : Thread nD τ).loc main_arg6)) shapeCasts_S32_S1x32 := entry0_v19 m ρ c
theorem edge_b2 (c : Dev nD) : (V1 m ρ c main_v20 : S1x1.Idx → EReal)
    = shapeCast S1x1 (m ((c : Thread nD τ).loc main_arg8)) shapeCasts_S1_S1x1 := entry0_v20 m ρ c

theorem node_features (c : Dev nD) : V3 m ρ c main_arg0 = m ((c : Thread nD τ).loc main_arg0) := entry1_arg0 m ρ c
theorem node_messages (c : Dev nD) : (V3 m ρ c main_v24 : S250000x1.Idx → EReal)
    = scat (m ((c : Thread nD τ).loc main_arg1)) ((dat0 (V1 m ρ) c).arrAt 9 cfg0.N) := entry1_v24 m ρ c
theorem node_w0 (c : Dev nD) : V3 m ρ c main_arg9 = m ((c : Thread nD τ).loc main_arg9) := entry1_arg9 m ρ c
theorem node_w1 (c : Dev nD) : V3 m ρ c main_arg11 = m ((c : Thread nD τ).loc main_arg11) := entry1_arg11 m ρ c
theorem node_b0 (c : Dev nD) : (V3 m ρ c main_v25 : S1x32.Idx → EReal)
    = shapeCast S1x32 (m ((c : Thread nD τ).loc main_arg10)) shapeCasts_S32_S1x32 := entry1_v25 m ρ c
theorem node_b1 (c : Dev nD) : (V3 m ρ c main_v26 : S1x1.Idx → EReal)
    = shapeCast S1x1 (m ((c : Thread nD τ).loc main_arg12)) shapeCasts_S1_S1x1 := entry1_v26 m ρ c

/-- The result buffer at the last boundary is what the node pipeline's write-backs leave. -/
theorem result_buffer (c : Dev nD) : W4 m ρ c (Proc.devRef .tc main_v27) = (dat1 (V3 m ρ) c).arrAt 6 cfg1.N := W4_arr m ρ c 6

end Cert.KernelIdeal.HostValue

end
-- ==== Proof.LibEdgeGather.lean ====
/-
  A gather through a column of start indices, read at an index.

  What `x[idx]` lowers to when `idx` is a vector of E integers: a `stablehlo.gather` whose start indices are an E×1
  column, the one component of each start index naming a position on the operand's first axis. The start index is read
  as a signed integer and clamped into 0 … N − 1 (a negative one reads position 0, one past the end reads position N − 1).
  * Of a flat operand of N entries the result is a vector of E entries: entry e is the operand at that position.
  * Of an N×C operand, whole rows are taken: entry (e, c) is the operand at (that position, c).
-/
import Idealize.ShloMosaic.PureOps
import Idealize.ShloMosaic.Lib.ValueIdx

noncomputable section

namespace Cert.Lib.EdgeGather

open Idealize.ShloMosaic Idealize.ShloMosaic.ValueIdx

variable {α : Type} {N E C w : Nat}

/-- The position a start index names: read signed, clamped into 0 … N − 1. -/
def pos (N : Nat) (hN : 0 < N) (b : BitVec w) : Fin N := ⟨min b.toInt.toNat (N - 1), by omega⟩

/-- Dimension numbers of a gather of single entries of a flat operand through an E×1 column of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a gather of whole rows of an N×C operand through an E×1 column of start indices. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry e of the flat gather: the operand at the position start index e names. -/
theorem flat_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (pos N hN (idx (ix2 e (0 : Fin 1))))) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Entry (e, c) of the row gather: the operand at (the position start index e names, c). -/
theorem row_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (pos N hN (idx (ix2 e (0 : Fin 1)))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (fun h => absurd (congrArg Fin.val (List.mem_singleton.mp h)) Nat.one_ne_zero)]
    have ho : (rowDims N E C wf).offCoord (ix2 e c) 1 = c.val := by
      unfold GatherDims.offCoord
      rw [dif_pos (by simp [GatherDims.sKept, Shape.kept])]
      rfl
    rw [hs, ho]
    omega

end Cert.Lib.EdgeGather

end
-- ==== Proof.Spec.lean ====
/-
  The function both programs compute, entry by entry, on the extended reals.

  A graph of 250000 nodes with two features each and 4000000 edges with three attributes each. Edge e joins a sender
  and a receiver; its MESSAGE is a three-layer perceptron (7 → 32 → 32 → 1, the first two layers clipped below at zero) of the seven
  numbers (sender's two features, receiver's two features, the edge's three attributes). The messages are summed into their
  receivers (a scatter-add, carried here as a function `scat` of the message column: both programs apply the same one). Node n's
  RESULT is the larger of zero and its first feature plus a two-layer perceptron (3 → 32 → 1, the first layer clipped below at
  zero) of its two features and its summed messages.
  A dense layer's entry is the sum over the inputs of input × weight, plus the bias; nothing here depends on the order or
  grouping of that sum beyond its being the sum over `Fin K`.
-/
import Idealize.ShloMosaic.PureOps.Ideal
import Idealize.ShloMosaic.Lib.ValueIdx
import proofs.«116314_j14920716387062_1_alg».proof.Proof.LibEdgeGather

noncomputable section

open scoped BigOperators

namespace Cert.Spec

open Idealize.ShloMosaic Idealize.ShloMosaic.ValueIdx

/-- The floor of the activations: the zero word of f32, read at the ideal values. -/
def zero : EReal := Ideal.ofBits .f32 0x00000000#32

/-- An activation clipped below at zero. -/
def relu (x : EReal) : EReal := max x zero

/-- Entry k of a dense layer: the sum over the inputs j of input j × weight (j, k), plus bias k. -/
def dense {K N : Nat} (x : Fin K → EReal) (W : (⟨2, ![K, N]⟩ : Shape).Idx → EReal) (b : Fin N → EReal) (k : Fin N) : EReal :=
  (∑ j : Fin K, x j * W (ix2 j k)) + b k

/-- An edge's message from its seven inputs: dense 7 → 32, clip, dense 32 → 32, clip, dense 32 → 1. -/
def edgeCore (x : Fin 7 → EReal) (W0 : (⟨2, ![7, 32]⟩ : Shape).Idx → EReal) (b0 : Fin 32 → EReal)
    (W1 : (⟨2, ![32, 32]⟩ : Shape).Idx → EReal) (b1 : Fin 32 → EReal)
    (W2 : (⟨2, ![32, 1]⟩ : Shape).Idx → EReal) (b2 : Fin 1 → EReal) : EReal :=
  dense (fun k => relu (dense (fun k' => relu (dense x W0 b0 k')) W1 b1 k)) W2 b2 0

/-- A node's result from its first feature h and its three inputs: the larger of zero and h + (dense 3 → 32, clip, dense 32 → 1). -/
def nodeCore (h : EReal) (x : Fin 3 → EReal) (W0 : (⟨2, ![3, 32]⟩ : Shape).Idx → EReal) (b0 : Fin 32 → EReal)
    (W1 : (⟨2, ![32, 1]⟩ : Shape).Idx → EReal) (b1 : Fin 1 → EReal) : EReal :=
  max (h + dense (fun k => relu (dense x W0 b0 k)) W1 b1 0) zero

/-- The node a start index names: read signed, clamped into 0 … 249999. -/
abbrev node (b : BitVec 32) : Fin 250000 := Cert.Lib.EdgeGather.pos 250000 (by decide) b

/-- The seven inputs of edge e's message: the features of the node its sender index names, those of the node its receiver
    index names, and its own three attributes. -/
def pairAt (a0 : (⟨2, ![250000, 2]⟩ : Shape).Idx → EReal) (sidx ridx : IVec ⟨2, ![4000000, 1]⟩ 32)
    (a2 : (⟨2, ![4000000, 3]⟩ : Shape).Idx → EReal) (e : Fin 4000000) : Fin 7 → EReal :=
  ![a0 (ix2 (node (sidx (ix2 e (0 : Fin 1)))) (0 : Fin 2)), a0 (ix2 (node (sidx (ix2 e (0 : Fin 1)))) (1 : Fin 2)),
    a0 (ix2 (node (ridx (ix2 e (0 : Fin 1)))) (0 : Fin 2)), a0 (ix2 (node (ridx (ix2 e (0 : Fin 1)))) (1 : Fin 2)),
    a2 (ix2 e (0 : Fin 3)), a2 (ix2 e (1 : Fin 3)), a2 (ix2 e (2 : Fin 3))]

/-- The column of the 4000000 messages. -/
def msg (a0 : (⟨2, ![250000, 2]⟩ : Shape).Idx → EReal) (sidx ridx : IVec ⟨2, ![4000000, 1]⟩ 32)
    (a2 : (⟨2, ![4000000, 3]⟩ : Shape).Idx → EReal)
    (a3 : (⟨2, ![7, 32]⟩ : Shape).Idx → EReal) (a4 : (⟨1, ![32]⟩ : Shape).Idx → EReal)
    (a5 : (⟨2, ![32, 32]⟩ : Shape).Idx → EReal) (a6 : (⟨1, ![32]⟩ : Shape).Idx → EReal)
    (a7 : (⟨2, ![32, 1]⟩ : Shape).Idx → EReal) (a8 : (⟨1, ![1]⟩ : Shape).Idx → EReal) :
    (⟨2, ![4000000, 1]⟩ : Shape).Idx → EReal :=
  fun i => edgeCore (pairAt a0 sidx ridx a2 (i 0)) a3 (fun k => a4 (ix1 k)) a5 (fun k => a6 (ix1 k)) a7 (fun k => a8 (ix1 k))

/-- The column of the 250000 results, from the summed messages `agg`. -/
def nodes (a0 : (⟨2, ![250000, 2]⟩ : Shape).Idx → EReal) (agg : (⟨2, ![250000, 1]⟩ : Shape).Idx → EReal)
    (a9 : (⟨2, ![3, 32]⟩ : Shape).Idx → EReal) (a10 : (⟨1, ![32]⟩ : Shape).Idx → EReal)
    (a11 : (⟨2, ![32, 1]⟩ : Shape).Idx → EReal) (a12 : (⟨1, ![1]⟩ : Shape).Idx → EReal) :
    (⟨2, ![250000, 1]⟩ : Shape).Idx → EReal :=
  fun i => nodeCore (a0 (ix2 (i 0) (0 : Fin 2)))
    ![a0 (ix2 (i 0) (0 : Fin 2)), a0 (ix2 (i 0) (1 : Fin 2)), agg (ix2 (i 0) (0 : Fin 1))]
    a9 (fun k => a10 (ix1 k)) a11 (fun k => a12 (ix1 k))

/-- The whole function: messages, their sums into the receivers (`scat`), results. -/
def out (scat : ((⟨2, ![4000000, 1]⟩ : Shape).Idx → EReal) → (⟨2, ![250000, 1]⟩ : Shape).Idx → EReal)
    (a0 : (⟨2, ![250000, 2]⟩ : Shape).Idx → EReal) (sidx ridx : IVec ⟨2, ![4000000, 1]⟩ 32)
    (a2 : (⟨2, ![4000000, 3]⟩ : Shape).Idx → EReal)
    (a3 : (⟨2, ![7, 32]⟩ : Shape).Idx → EReal) (a4 : (⟨1, ![32]⟩ : Shape).Idx → EReal)
    (a5 : (⟨2, ![32, 32]⟩ : Shape).Idx → EReal) (a6 : (⟨1, ![32]⟩ : Shape).Idx → EReal)
    (a7 : (⟨2, ![32, 1]⟩ : Shape).Idx → EReal) (a8 : (⟨1, ![1]⟩ : Shape).Idx → EReal)
    (a9 : (⟨2, ![3, 32]⟩ : Shape).Idx → EReal) (a10 : (⟨1, ![32]⟩ : Shape).Idx → EReal)
    (a11 : (⟨2, ![32, 1]⟩ : Shape).Idx → EReal) (a12 : (⟨1, ![1]⟩ : Shape).Idx → EReal) :
    (⟨2, ![250000, 1]⟩ : Shape).Idx → EReal :=
  nodes a0 (scat (msg a0 sidx ridx a2 a3 a4 a5 a6 a7 a8)) a9 a10 a11 a12

end Cert.Spec

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.NodePay.lean ====
/-
  One entry of the node pipeline's payload.

  At a grid point the body holds 5000 nodes: their two features (a 5000×2 block), their summed messages (a 5000×1 block), and
  the node perceptron's weights and biases whole. Row p of what it stores is: join the node's two features and its summed
  messages into three inputs; the hidden layer's entry k is the sum over the three inputs of input × weight (j, k), plus bias k,
  clipped below at zero; the update is the sum over the 32 hidden entries of entry × weight (k, 0), plus the bias; the result is
  the larger of zero and first feature + update. The roundings to bf16 on the way into the products are the identity at the
  ideal values, and a product into the zero accumulator is the plain sum over the contracted coordinate.
-/
import proofs.«116314_j14920716387062_1_alg».proof.Proof.Gen.KernelIdeal.Skeleton
import proofs.«116314_j14920716387062_1_alg».proof.Proof.Spec
import proofs.«116314_j14920716387062_1_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.NodeRegion

open Idealize.ShloMosaic Idealize.ShloMosaic.ValueIdx Cert.KernelIdeal Cert.KernelIdeal.Gen

/-- The two products' dimension numbers are those of a plain matrix product. -/
theorem dims_hidden : dot_S5000x3_S3x32_S5000x32_1_0_0_1_n_n = DotDims.plain 5000 3 32 := rfl
theorem dims_update : dot_S5000x32_S32x1_S5000x1_1_0_0_1_n_n = DotDims.plain 5000 32 1 := rfl

/-- Row p of the joined inputs: the node's two features, then its summed messages. -/
theorem join_apply (x0 : Vec Ideal S5000x2 .f32) (x1 : Vec Ideal S5000x1 .f32) (p : Fin 5000) (j : Fin 3) :
    concatenate S5000x3 1 [⟨S5000x2, x0⟩, ⟨S5000x1, x1⟩] concatenates_S5000x2_S5000x1_S5000x3_d1 (ix2 p j)
      = ![x0 (ix2 p (0 : Fin 2)), x0 (ix2 p (1 : Fin 2)), x1 (ix2 p (0 : Fin 1))] j := by
  match j with
  | ⟨0, _⟩ =>
    exact concatenate_pair_apply_left (t := S5000x3) (1 : Fin 2) x0 x1 concatenates_S5000x2_S5000x1_S5000x3_d1
      (ix2 p (0 : Fin 3)) rfl (ix2 p (0 : Fin 2)) (fun b => by match b with | ⟨0, _⟩ => rfl | ⟨1, _⟩ => rfl)
  | ⟨1, _⟩ =>
    exact concatenate_pair_apply_left (t := S5000x3) (1 : Fin 2) x0 x1 concatenates_S5000x2_S5000x1_S5000x3_d1
      (ix2 p (1 : Fin 3)) rfl (ix2 p (1 : Fin 2)) (fun b => by match b with | ⟨0, _⟩ => rfl | ⟨1, _⟩ => rfl)
  | ⟨2, _⟩ =>
    exact concatenate_pair_apply_right (t := S5000x3) (1 : Fin 2) x0 x1 concatenates_S5000x2_S5000x1_S5000x3_d1
      (ix2 p (2 : Fin 3)) rfl rfl (ix2 p (0 : Fin 1))
      (fun b hb => by match b with | ⟨0, _⟩ => rfl | ⟨1, _⟩ => exact absurd rfl hb) rfl

/-- Row p of the first column cut out of the feature block is the node's first feature. -/
theorem first_feature (x0 : Vec Ideal S5000x2 .f32) (p : Fin 5000) :
    extractStridedSlice S5000x1 ![0, 0] x0 slices_S5000x2_o0_0_S5000x1 (ix2 p (0 : Fin 1)) = x0 (ix2 p (0 : Fin 2)) :=
  slice2_axis1_apply 0 x0 slices_S5000x2_o0_0_S5000x1 p (0 : Fin 1) (0 : Fin 2) rfl

/-- Row p of the payload is the node's result from its first feature and its three inputs. -/
theorem entry (x0 : Vec Ideal S5000x2 .f32) (x1 : Vec Ideal S5000x1 .f32) (x2 : Vec Ideal S3x32 .f32) (x3 : Vec Ideal S1x32 .f32)
    (x4 : Vec Ideal S32x1 .f32) (x5 : Vec Ideal S1x1 .f32) (p : Fin 5000) :
    k1_pay1 x0 x1 x2 x3 x4 x5 (ix2 p (0 : Fin 1))
      = Cert.Spec.nodeCore (x0 (ix2 p (0 : Fin 2))) ![x0 (ix2 p (0 : Fin 2)), x0 (ix2 p (1 : Fin 2)), x1 (ix2 p (0 : Fin 1))]
          x2 (fun k => x3 (ix2 (0 : Fin 1) k)) x4 (fun k => x5 (ix2 (0 : Fin 1) k)) := by
  unfold k1_pay1 Cert.Spec.nodeCore Cert.Spec.dense Cert.Spec.relu Cert.Spec.zero
  simp only [dims_hidden, dims_update, shapeCast_self, maximumf_apply, addf_apply, truncf_apply, broadcast_apply,
    PlainDot.matmul_zero_apply, broadcastTo_1b_ab_apply, Ideal.ofBits_def]
  refine congrArg₂ max (congrArg₂ (· + ·) (first_feature x0 p) (congrArg₂ (· + ·) (Finset.sum_congr rfl fun k _ => ?_) rfl)) rfl
  refine congrArg₂ (· * ·) (congrArg₂ max (congrArg₂ (· + ·) (Finset.sum_congr rfl fun j _ => ?_) rfl) rfl) rfl
  exact congrArg₂ (· * ·) (join_apply x0 x1 p j) rfl

end Cert.KernelIdeal.NodeRegion

end
-- ==== Proof.NodeArray.lean ====
/-
  The node pipeline, from blocks to the whole result column.

  The 250000 nodes are cut into 50 blocks of 5000 rows; grid point t stages block t of the node features and of the summed
  messages, the perceptron's weights and biases whole, and writes back block t of the result. An element of a block sits in its
  array at block index × block size + its own coordinate, so row p of point t is node 5000 t + p, and what the point writes back
  is block t of ONE function of the arrays as the pipeline finds them: node n's result from row n of the features and of the
  summed messages. Every node lies in exactly the block n / 5000, so the blocks cover the result array, and after the last
  write-back the array is that function.
-/
import proofs.«116314_j14920716387062_1_alg».proof.Proof.Gen.KernelIdeal.Frame
import proofs.«116314_j14920716387062_1_alg».proof.Proof.NodePay

set_option maxRecDepth 16384

noncomputable section

namespace Cert.KernelIdeal.NodeRegion

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Node n's result from the arrays as the pipeline finds them. -/
def results (c : Dev nD) : S250000x1.Idx → EReal := fun i =>
  Cert.Spec.nodeCore (V c main_arg0 (ix2 (i 0) (0 : Fin 2)))
    ![V c main_arg0 (ix2 (i 0) (0 : Fin 2)), V c main_arg0 (ix2 (i 0) (1 : Fin 2)), V c main_v24 (ix2 (i 0) (0 : Fin 1))]
    (V c main_arg9) (fun k => V c main_v25 (ix2 (0 : Fin 1) k)) (V c main_arg11) (fun k => V c main_v26 (ix2 (0 : Fin 1) k))

/-- The index maps over the grid: the feature, message and result blocks move together, block t at point t, and the
    weights and biases stay at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the feature block at point t is row 5000 t + p of the feature array. -/
theorem feature_block (c : Dev nD) (t : Fin cfg1.N) (p : Fin 5000) (q : Fin 2) (n : Fin 250000) (hn : n.val = t.val * 5000 + p.val) :
    iblk1 V c 0 t (ix2 p q) = V c main_arg0 (ix2 n q) := by
  obtain ⟨e0, e1, -⟩ := index_facts t
  show V c main_arg0 (((cfg1.win 0).blk t).view.emb (ix2 p q)) = V c main_arg0 (ix2 n q)
  refine congrArg (V c main_arg0) (funext fun a => Fin.ext ?_)
  match a with
  | ⟨0, _⟩ => show win1_0.index t (0 : Fin 2) * 5000 + 1 * p.val = n.val; omega
  | ⟨1, _⟩ => show win1_0.index t (1 : Fin 2) * 2 + 1 * q.val = q.val; omega

/-- Row p of the summed-message block at point t is row 5000 t + p of that array. -/
theorem message_block (c : Dev nD) (t : Fin cfg1.N) (p : Fin 5000) (q : Fin 1) (n : Fin 250000) (hn : n.val = t.val * 5000 + p.val) :
    iblk1 V c 1 t (ix2 p q) = V c main_v24 (ix2 n q) := by
  obtain ⟨-, -, e0, e1, -⟩ := index_facts t
  show V c main_v24 (((cfg1.win 1).blk t).view.emb (ix2 p q)) = V c main_v24 (ix2 n q)
  refine congrArg (V c main_v24) (funext fun a => Fin.ext ?_)
  match a with
  | ⟨0, _⟩ => show win1_1.index t (0 : Fin 2) * 5000 + 1 * p.val = n.val; omega
  | ⟨1, _⟩ => show win1_1.index t (1 : Fin 2) * 1 + 1 * q.val = q.val; omega

/-- The weights and biases are staged whole: their block at any point is the array. -/
theorem weights0_block (c : Dev nD) (t : Fin cfg1.N) : iblk1 V c 2 t = V c main_arg9 := by
  obtain ⟨-, -, -, -, e0, e1, -⟩ := index_facts t
  funext y
  show V c main_arg9 (((cfg1.win 2).blk t).view.emb y) = V c main_arg9 y
  refine congrArg (V c main_arg9) (funext fun a => Fin.ext ?_)
  match a with
  | ⟨0, _⟩ => show win1_2.index t (0 : Fin 2) * 3 + 1 * (y 0).val = (y 0).val; omega
  | ⟨1, _⟩ => show win1_2.index t (1 : Fin 2) * 32 + 1 * (y 1).val = (y 1).val; omega

theorem bias0_block (c : Dev nD) (t : Fin cfg1.N) : iblk1 V c 3 t = V c main_v25 := by
  obtain ⟨-, -, -, -, -, -, e0, e1, -⟩ := index_facts t
  funext y
  show V c main_v25 (((cfg1.win 3).blk t).view.emb y) = V c main_v25 y
  refine congrArg (V c main_v25) (funext fun a => Fin.ext ?_)
  match a with
  | ⟨0, _⟩ => show win1_3.index t (0 : Fin 2) * 1 + 1 * (y 0).val = (y 0).val; omega
  | ⟨1, _⟩ => show win1_3.index t (1 : Fin 2) * 32 + 1 * (y 1).val = (y 1).val; omega

theorem weights1_block (c : Dev nD) (t : Fin cfg1.N) : iblk1 V c 4 t = V c main_arg11 := by
  obtain ⟨-, -, -, -, -, -, -, -, e0, e1, -⟩ := index_facts t
  funext y
  show V c main_arg11 (((cfg1.win 4).blk t).view.emb y) = V c main_arg11 y
  refine congrArg (V c main_arg11) (funext fun a => Fin.ext ?_)
  match a with
  | ⟨0, _⟩ => show win1_4.index t (0 : Fin 2) * 32 + 1 * (y 0).val = (y 0).val; omega
  | ⟨1, _⟩ => show win1_4.index t (1 : Fin 2) * 1 + 1 * (y 1).val = (y 1).val; omega

theorem bias1_block (c : Dev nD) (t : Fin cfg1.N) : iblk1 V c 5 t = V c main_v26 := by
  obtain ⟨-, -, -, -, -, -, -, -, -, -, e0, e1, -⟩ := index_facts t
  funext y
  show V c main_v26 (((cfg1.win 5).blk t).view.emb y) = V c main_v26 y
  refine congrArg (V c main_v26) (funext fun a => Fin.ext ?_)
  match a with
  | ⟨0, _⟩ => show win1_5.index t (0 : Fin 2) * 1 + 1 * (y 0).val = (y 0).val; omega
  | ⟨1, _⟩ => show win1_5.index t (1 : Fin 2) * 1 + 1 * (y 1).val = (y 1).val; omega

/-- What point t writes back is block t of the nodes' results. -/
theorem flushed_eq (c : Dev nD) (t : Fin cfg1.N) :
    (dat1 (F := Ideal) V c).flushed 6 t = ((cfg1.win 6).blk t).view.read (Elt Ideal) (results V c) := by
  show (cfg1.win 6).cut (grid1.coords t) ((dat1 V c).after 6 t) = _
  rw [after1_6]
  unfold out1_6
  rw [View.canon_unit_zero origin]
  simp only [View.ld_unit_zero (S := S5000x2) origin, View.ld_unit_zero (S := S5000x1) origin, View.ld_unit_zero (S := S3x32) origin,
    View.ld_unit_zero (S := S1x32) origin, View.ld_unit_zero (S := S32x1) origin, View.ld_unit_zero (S := S1x1) origin]
  rw [weights0_block V c t, bias0_block V c t, weights1_block V c t, bias1_block V c t]
  funext y
  obtain ⟨p, q, rfl⟩ : ∃ (p : Fin 5000) (q : Fin 1), y = ix2 p q := ⟨y 0, y 1, eq_ix2 y⟩
  obtain rfl : q = 0 := Subsingleton.elim _ _
  have hN : t.val < 50 := by have := t.isLt; have e : cfg1.N = 50 := N_1; omega
  obtain ⟨-, -, -, -, -, -, -, -, -, -, -, -, e0, e1⟩ := index_facts t
  have hrow : (((cfg1.win 6).blk t).view.emb (ix2 p (0 : Fin 1)) 0).val = t.val * 5000 + p.val := by
    show win1_6.index t (0 : Fin 2) * 5000 + 1 * p.val = _; omega
  show k1_pay1 (iblk1 V c 0 t) (iblk1 V c 1 t) (V c main_arg9) (V c main_v25) (V c main_arg11) (V c main_v26) (ix2 p (0 : Fin 1))
    = results V c (((cfg1.win 6).blk t).view.emb (ix2 p (0 : Fin 1)))
  refine (entry (iblk1 V c 0 t) (iblk1 V c 1 t) (V c main_arg9) (V c main_v25) (V c main_arg11) (V c main_v26) p).trans ?_
  rw [feature_block V c t p 0 _ hrow, feature_block V c t p 1 _ hrow, message_block V c t p 0 _ hrow]
  rfl

/-- A node is in point t's block iff its row lies in the block's 5000 rows. -/
theorem mem_block (t : Fin cfg1.N) (i : S250000x1.Idx) :
    i ∈ ((cfg1.win 6).blk t).view.set ↔ ∀ a : Fin 2, win1_6.index t a * S5000x1.size a ≤ (i a).val
      ∧ (i a).val < win1_6.index t a * S5000x1.size a + S5000x1.size a := by
  show i ∈ ((View.whole main_v27).slice (win1_6.rect t)).set ↔ _
  rw [View.set_slice_whole, Rect.mem_set_unit]
  exact Iff.rfl

/-- Every node lies in the block of the point n / 5000, and every point writes its block back. -/
theorem cover (i : S250000x1.Idx) :
    ∃ t : Fin cfg1.N, (cfg1.win 6).flush t = true ∧ i ∈ ((cfg1.win 6).blk t).view.set := by
  have hi0 : (i 0).val < 250000 := (i 0).isLt
  have hi1 : (i 1).val < 1 := (i 1).isLt
  obtain ⟨t, ht⟩ : ∃ t : Fin cfg1.N, t.val = (i 0).val / 5000 :=
    ⟨⟨(i 0).val / 5000, by show _ < cfg1.N; rw [show cfg1.N = 50 from N_1]; omega⟩, rfl⟩
  obtain ⟨-, -, -, -, -, -, -, -, -, -, -, -, e0, e1⟩ := index_facts t
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 1 ≤ (i 1).val ∧ (i 1).val < win1_6.index t (1 : Fin 2) * 1 + 1
    omega

/-- After the last write-back the result array holds every node's result. -/
theorem node_array (c : Dev nD) : (dat1 (F := Ideal) V c).arrAt 6 cfg1.N = results V c :=
  (dat1 V c).arrAt_eq_of_cover 6 (results V c) (fun t _ => flushed_eq V c t) cover

end Cert.KernelIdeal.NodeRegion

end
-- ==== Proof.EdgePay.lean ====
/-
  One entry of the edge pipeline's payload.

  At a grid point the body holds 4000 edges: the two features of each edge's sender (a 4000×2 block), those of its receiver
  (a 4000×2 block), its three attributes (a 4000×3 block), and the message perceptron's weights and biases whole. Row p of what
  it stores is: join the sender's two features, the receiver's two features and the three attributes into seven inputs; the
  first hidden layer's entry k is the sum over the seven inputs of input × weight (j, k), plus bias k, clipped below at zero; the
  second hidden layer's entry k is the sum over the 32 first-layer entries of entry × weight (k', k), plus bias k, clipped below
  at zero; the message is the sum over the 32 second-layer entries of entry × weight (k, 0), plus the bias. The roundings to bf16
  on the way into the products are the identity at the ideal values, and a product into the zero accumulator is the plain sum
  over the contracted coordinate.
-/
import proofs.«116314_j14920716387062_1_alg».proof.Proof.Gen.KernelIdeal.Skeleton
import proofs.«116314_j14920716387062_1_alg».proof.Proof.Spec
import proofs.«116314_j14920716387062_1_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.EdgeRegion

open Idealize.ShloMosaic Idealize.ShloMosaic.ValueIdx Cert.KernelIdeal Cert.KernelIdeal.Gen

/-- The three products' dimension numbers are those of a plain matrix product. -/
theorem dims_hidden0 : dot_S4000x7_S7x32_S4000x32_1_0_0_1_n_n = DotDims.plain 4000 7 32 := rfl
theorem dims_hidden1 : dot_S4000x32_S32x32_S4000x32_1_0_0_1_n_n = DotDims.plain 4000 32 32 := rfl
theorem dims_message : dot_S4000x32_S32x1_S4000x1_1_0_0_1_n_n = DotDims.plain 4000 32 1 := rfl

/-- The first column of a 4000×2 block, at row p. -/
theorem column0_apply (x : FVec Ideal S4000x2 .f32) (p : Fin 4000) :
    extractStridedSlice S4000x1 ![0, 0] x slices_S4000x2_o0_0_S4000x1 (ix2 p (0 : Fin 1)) = x (ix2 p (0 : Fin 2)) :=
  slice2_axis1_apply 0 x slices_S4000x2_o0_0_S4000x1 p (0 : Fin 1) (0 : Fin 2) rfl

/-- The second column of a 4000×2 block, at row p. -/
theorem column1_apply (x : FVec Ideal S4000x2 .f32) (p : Fin 4000) :
    extractStridedSlice S4000x1 ![0, 1] x slices_S4000x2_o0_1_S4000x1 (ix2 p (0 : Fin 1)) = x (ix2 p (1 : Fin 2)) :=
  slice2_axis1_apply 1 x slices_S4000x2_o0_1_S4000x1 p (0 : Fin 1) (1 : Fin 2) rfl

/-- Row p of the join of four columns and a 4000×3 block: the four columns' entries at row p, then the block's three. -/
theorem join_apply (y0 y1 y2 y3 : FVec Ideal S4000x1 .f32) (y4 : FVec Ideal S4000x3 .f32) (p : Fin 4000) (j : Fin 7) :
    concatenate S4000x7 1 [⟨S4000x1, y0⟩, ⟨S4000x1, y1⟩, ⟨S4000x1, y2⟩, ⟨S4000x1, y3⟩, ⟨S4000x3, y4⟩]
        concatenates_S4000x1_S4000x1_S4000x1_S4000x1_S4000x3_S4000x7_d1 (ix2 p j)
      = ![y0 (ix2 p (0 : Fin 1)), y1 (ix2 p (0 : Fin 1)), y2 (ix2 p (0 : Fin 1)), y3 (ix2 p (0 : Fin 1)),
          y4 (ix2 p (0 : Fin 3)), y4 (ix2 p (1 : Fin 3)), y4 (ix2 p (2 : Fin 3))] j := by
  match j with
  | ⟨0, _⟩ =>
    exact concatenate_apply_piece (t := S4000x7) (1 : Fin 2)
      ([⟨S4000x1, y0⟩, ⟨S4000x1, y1⟩, ⟨S4000x1, y2⟩, ⟨S4000x1, y3⟩, ⟨S4000x3, y4⟩] : List ((s : Shape) × (s.Idx → Ideal .f32)))
      concatenates_S4000x1_S4000x1_S4000x1_S4000x1_S4000x3_S4000x7_d1 _
      0 (by simp) S4000x1 y0 rfl rfl 0 rfl (ix2 p (0 : Fin 1))
      (fun b hb => by match b with | ⟨0, _⟩ => rfl | ⟨1, _⟩ => exact absurd rfl hb) rfl
  | ⟨1, _⟩ =>
    exact concatenate_apply_piece (t := S4000x7) (1 : Fin 2)
      ([⟨S4000x1, y0⟩, ⟨S4000x1, y1⟩, ⟨S4000x1, y2⟩, ⟨S4000x1, y3⟩, ⟨S4000x3, y4⟩] : List ((s : Shape) × (s.Idx → Ideal .f32)))
      concatenates_S4000x1_S4000x1_S4000x1_S4000x1_S4000x3_S4000x7_d1 _
      1 (by simp) S4000x1 y1 rfl rfl 1 rfl (ix2 p (0 : Fin 1))
      (fun b hb => by match b with | ⟨0, _⟩ => rfl | ⟨1, _⟩ => exact absurd rfl hb) rfl
  | ⟨2, _⟩ =>
    exact concatenate_apply_piece (t := S4000x7) (1 : Fin 2)
      ([⟨S4000x1, y0⟩, ⟨S4000x1, y1⟩, ⟨S4000x1, y2⟩, ⟨S4000x1, y3⟩, ⟨S4000x3, y4⟩] : List ((s : Shape) × (s.Idx → Ideal .f32)))
      concatenates_S4000x1_S4000x1_S4000x1_S4000x1_S4000x3_S4000x7_d1 _
      2 (by simp) S4000x1 y2 rfl rfl 2 rfl (ix2 p (0 : Fin 1))
      (fun b hb => by match b with | ⟨0, _⟩ => rfl | ⟨1, _⟩ => exact absurd rfl hb) rfl
  | ⟨3, _⟩ =>
    exact concatenate_apply_piece (t := S4000x7) (1 : Fin 2)
      ([⟨S4000x1, y0⟩, ⟨S4000x1, y1⟩, ⟨S4000x1, y2⟩, ⟨S4000x1, y3⟩, ⟨S4000x3, y4⟩] : List ((s : Shape) × (s.Idx → Ideal .f32)))
      concatenates_S4000x1_S4000x1_S4000x1_S4000x1_S4000x3_S4000x7_d1 _
      3 (by simp) S4000x1 y3 rfl rfl 3 rfl (ix2 p (0 : Fin 1))
      (fun b hb => by match b with | ⟨0, _⟩ => rfl | ⟨1, _⟩ => exact absurd rfl hb) rfl
  | ⟨4, _⟩ =>
    exact concatenate_apply_piece (t := S4000x7) (1 : Fin 2)
      ([⟨S4000x1, y0⟩, ⟨S4000x1, y1⟩, ⟨S4000x1, y2⟩, ⟨S4000x1, y3⟩, ⟨S4000x3, y4⟩] : List ((s : Shape) × (s.Idx → Ideal .f32)))
      concatenates_S4000x1_S4000x1_S4000x1_S4000x1_S4000x3_S4000x7_d1 _
      4 (by simp) S4000x3 y4 rfl rfl 4 rfl (ix2 p (0 : Fin 3))
      (fun b hb => by match b with | ⟨0, _⟩ => rfl | ⟨1, _⟩ => exact absurd rfl hb) rfl
  | ⟨5, _⟩ =>
    exact concatenate_apply_piece (t := S4000x7) (1 : Fin 2)
      ([⟨S4000x1, y0⟩, ⟨S4000x1, y1⟩, ⟨S4000x1, y2⟩, ⟨S4000x1, y3⟩, ⟨S4000x3, y4⟩] : List ((s : Shape) × (s.Idx → Ideal .f32)))
      concatenates_S4000x1_S4000x1_S4000x1_S4000x1_S4000x3_S4000x7_d1 _
      4 (by simp) S4000x3 y4 rfl rfl 4 rfl (ix2 p (1 : Fin 3))
      (fun b hb => by match b with | ⟨0, _⟩ => rfl | ⟨1, _⟩ => exact absurd rfl hb) rfl
  | ⟨6, _⟩ =>
    exact concatenate_apply_piece (t := S4000x7) (1 : Fin 2)
      ([⟨S4000x1, y0⟩, ⟨S4000x1, y1⟩, ⟨S4000x1, y2⟩, ⟨S4000x1, y3⟩, ⟨S4000x3, y4⟩] : List ((s : Shape) × (s.Idx → Ideal .f32)))
      concatenates_S4000x1_S4000x1_S4000x1_S4000x1_S4000x3_S4000x7_d1 _
      4 (by simp) S4000x3 y4 rfl rfl 4 rfl (ix2 p (2 : Fin 3))
      (fun b hb => by match b with | ⟨0, _⟩ => rfl | ⟨1, _⟩ => exact absurd rfl hb) rfl

/-- Row p of the payload is the edge's message from its seven inputs. -/
theorem entry (x0 x1 : Vec Ideal S4000x2 .f32) (x2 : Vec Ideal S4000x3 .f32) (x3 : Vec Ideal S7x32 .f32)
    (x4 : Vec Ideal S1x32 .f32) (x5 : Vec Ideal S32x32 .f32) (x6 : Vec Ideal S1x32 .f32) (x7 : Vec Ideal S32x1 .f32)
    (x8 : Vec Ideal S1x1 .f32) (p : Fin 4000) :
    k0_pay1 (k0_pay2 x0 x1 x2 x3 x4 x5 x6 x7) (k0_pay3 x8) (ix2 p (0 : Fin 1))
      = Cert.Spec.edgeCore
          ![x0 (ix2 p (0 : Fin 2)), x0 (ix2 p (1 : Fin 2)), x1 (ix2 p (0 : Fin 2)), x1 (ix2 p (1 : Fin 2)),
            x2 (ix2 p (0 : Fin 3)), x2 (ix2 p (1 : Fin 3)), x2 (ix2 p (2 : Fin 3))]
          x3 (fun k => x4 (ix2 (0 : Fin 1) k)) x5 (fun k => x6 (ix2 (0 : Fin 1) k)) x7 (fun k => x8 (ix2 (0 : Fin 1) k)) := by
  unfold k0_pay1 k0_pay2 k0_pay3 Cert.Spec.edgeCore Cert.Spec.dense Cert.Spec.relu Cert.Spec.zero
  simp only [dims_hidden0, dims_hidden1, dims_message, shapeCast_self, maximumf_apply, addf_apply, truncf_apply, broadcast_apply,
    PlainDot.matmul_zero_apply, broadcastTo_1b_ab_apply, join_apply, column0_apply, column1_apply, Ideal.ofBits_def]

end Cert.KernelIdeal.EdgeRegion

end
-- ==== Proof.EdgeArray.lean ====
/-
  The edge pipeline, from blocks to the whole message column.

  The 4000000 edges are cut into 1000 blocks of 4000 rows; grid point t stages block t of the senders' features, of the
  receivers' features and of the edge attributes, the perceptron's weights and biases whole, and writes back block t of the
  message column. An element of a block sits in its array at block index × block size + its own coordinate, so row p of point t
  is edge 4000 t + p, and what the point writes back is block t of ONE function of the arrays as the pipeline finds them: edge
  e's message from row e of the three edge arrays. Every edge lies in exactly the block e / 4000, so the blocks cover the message
  column, and after the last write-back the column is that function.
-/
import proofs.«116314_j14920716387062_1_alg».proof.Proof.Gen.KernelIdeal.Frame
import proofs.«116314_j14920716387062_1_alg».proof.Proof.EdgePay

set_option maxRecDepth 16384

noncomputable section

namespace Cert.KernelIdeal.EdgeRegion

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Edge e's message from the arrays as the pipeline finds them. -/
def messages (c : Dev nD) : S4000000x1.Idx → EReal := fun i =>
  Cert.Spec.edgeCore
    ![V c main_v10 (ix2 (i 0) (0 : Fin 2)), V c main_v10 (ix2 (i 0) (1 : Fin 2)),
      V c main_v17 (ix2 (i 0) (0 : Fin 2)), V c main_v17 (ix2 (i 0) (1 : Fin 2)),
      V c main_arg2 (ix2 (i 0) (0 : Fin 3)), V c main_arg2 (ix2 (i 0) (1 : Fin 3)), V c main_arg2 (ix2 (i 0) (2 : Fin 3))]
    (V c main_arg3) (fun k => V c main_v18 (ix2 (0 : Fin 1) k)) (V c main_arg5) (fun k => V c main_v19 (ix2 (0 : Fin 1) k))
    (V c main_arg7) (fun k => V c main_v20 (ix2 (0 : Fin 1) k))

/-- The index maps over the grid: the sender, receiver, attribute and message blocks move together, block t at
    point t, and the weights and biases stay at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of the sender block at point t is row 4000 t + p of the senders' features. -/
theorem sender_block (c : Dev nD) (t : Fin cfg0.N) (p : Fin 4000) (q : Fin 2) (e : Fin 4000000) (he : e.val = t.val * 4000 + p.val) :
    iblk0 V c 0 t (ix2 p q) = V c main_v10 (ix2 e q) := by
  obtain ⟨e0, e1, -⟩ := index_facts t
  show V c main_v10 (((cfg0.win 0).blk t).view.emb (ix2 p q)) = V c main_v10 (ix2 e q)
  refine congrArg (V c main_v10) (funext fun a => Fin.ext ?_)
  match a with
  | ⟨0, _⟩ => show win0_0.index t (0 : Fin 2) * 4000 + 1 * p.val = e.val; omega
  | ⟨1, _⟩ => show win0_0.index t (1 : Fin 2) * 2 + 1 * q.val = q.val; omega

/-- Row p of the receiver block at point t is row 4000 t + p of the receivers' features. -/
theorem receiver_block (c : Dev nD) (t : Fin cfg0.N) (p : Fin 4000) (q : Fin 2) (e : Fin 4000000) (he : e.val = t.val * 4000 + p.val) :
    iblk0 V c 1 t (ix2 p q) = V c main_v17 (ix2 e q) := by
  obtain ⟨-, -, e0, e1, -⟩ := index_facts t
  show V c main_v17 (((cfg0.win 1).blk t).view.emb (ix2 p q)) = V c main_v17 (ix2 e q)
  refine congrArg (V c main_v17) (funext fun a => Fin.ext ?_)
  match a with
  | ⟨0, _⟩ => show win0_1.index t (0 : Fin 2) * 4000 + 1 * p.val = e.val; omega
  | ⟨1, _⟩ => show win0_1.index t (1 : Fin 2) * 2 + 1 * q.val = q.val; omega

/-- Row p of the attribute block at point t is row 4000 t + p of the edge attributes. -/
theorem attribute_block (c : Dev nD) (t : Fin cfg0.N) (p : Fin 4000) (q : Fin 3) (e : Fin 4000000) (he : e.val = t.val * 4000 + p.val) :
    iblk0 V c 2 t (ix2 p q) = V c main_arg2 (ix2 e q) := by
  obtain ⟨-, -, -, -, e0, e1, -⟩ := index_facts t
  show V c main_arg2 (((cfg0.win 2).blk t).view.emb (ix2 p q)) = V c main_arg2 (ix2 e q)
  refine congrArg (V c main_arg2) (funext fun a => Fin.ext ?_)
  match a with
  | ⟨0, _⟩ => show win0_2.index t (0 : Fin 2) * 4000 + 1 * p.val = e.val; omega
  | ⟨1, _⟩ => show win0_2.index t (1 : Fin 2) * 3 + 1 * q.val = q.val; omega

/-- The weights and biases are staged whole: their block at any point is the array. -/
theorem weights0_block (c : Dev nD) (t : Fin cfg0.N) : iblk0 V c 3 t = V c main_arg3 := by
  obtain ⟨-, -, -, -, -, -, e0, e1, -⟩ := index_facts t
  funext y
  show V c main_arg3 (((cfg0.win 3).blk t).view.emb y) = V c main_arg3 y
  refine congrArg (V c main_arg3) (funext fun a => Fin.ext ?_)
  match a with
  | ⟨0, _⟩ => show win0_3.index t (0 : Fin 2) * 7 + 1 * (y 0).val = (y 0).val; omega
  | ⟨1, _⟩ => show win0_3.index t (1 : Fin 2) * 32 + 1 * (y 1).val = (y 1).val; omega

theorem bias0_block (c : Dev nD) (t : Fin cfg0.N) : iblk0 V c 4 t = V c main_v18 := by
  obtain ⟨-, -, -, -, -, -, -, -, e0, e1, -⟩ := index_facts t
  funext y
  show V c main_v18 (((cfg0.win 4).blk t).view.emb y) = V c main_v18 y
  refine congrArg (V c main_v18) (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

theorem weights1_block (c : Dev nD) (t : Fin cfg0.N) : iblk0 V c 5 t = V c main_arg5 := by
  obtain ⟨-, -, -, -, -, -, -, -, -, -, e0, e1, -⟩ := index_facts t
  funext y
  show V c main_arg5 (((cfg0.win 5).blk t).view.emb y) = V c main_arg5 y
  refine congrArg (V c main_arg5) (funext fun a => Fin.ext ?_)
  match a with
  | ⟨0, _⟩ => show win0_5.index t (0 : Fin 2) * 32 + 1 * (y 0).val = (y 0).val; omega
  | ⟨1, _⟩ => show win0_5.index t (1 : Fin 2) * 32 + 1 * (y 1).val = (y 1).val; omega

theorem bias1_block (c : Dev nD) (t : Fin cfg0.N) : iblk0 V c 6 t = V c main_v19 := by
  obtain ⟨-, -, -, -, -, -, -, -, -, -, -, -, e0, e1, -⟩ := index_facts t
  funext y
  show V c main_v19 (((cfg0.win 6).blk t).view.emb y) = V c main_v19 y
  refine congrArg (V c main_v19) (funext fun a => Fin.ext ?_)
  match a with
  | ⟨0, _⟩ => show win0_6.index t (0 : Fin 2) * 1 + 1 * (y 0).val = (y 0).val; omega
  | ⟨1, _⟩ => show win0_6.index t (1 : Fin 2) * 32 + 1 * (y 1).val = (y 1).val; omega

theorem weights2_block (c : Dev nD) (t : Fin cfg0.N) : iblk0 V c 7 t = V c main_arg7 := by
  obtain ⟨-, -, -, -, -, -, -, -, -, -, -, -, -, -, e0, e1, -⟩ := index_facts t
  funext y
  show V c main_arg7 (((cfg0.win 7).blk t).view.emb y) = V c main_arg7 y
  refine congrArg (V c main_arg7) (funext fun a => Fin.ext ?_)
  match a with
  | ⟨0, _⟩ => show win0_7.index t (0 : Fin 2) * 32 + 1 * (y 0).val = (y 0).val; omega
  | ⟨1, _⟩ => show win0_7.index t (1 : Fin 2) * 1 + 1 * (y 1).val = (y 1).val; omega

theorem bias2_block (c : Dev nD) (t : Fin cfg0.N) : iblk0 V c 8 t = V c main_v20 := by
  obtain ⟨-, -, -, -, -, -, -, -, -, -, -, -, -, -, -, -, e0, e1, -⟩ := index_facts t
  funext y
  show V c main_v20 (((cfg0.win 8).blk t).view.emb y) = V c main_v20 y
  refine congrArg (V c main_v20) (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- What point t writes back is block t of the edges' messages. -/
theorem flushed_eq (c : Dev nD) (t : Fin cfg0.N) :
    (dat0 (F := Ideal) V c).flushed 9 t = ((cfg0.win 9).blk t).view.read (Elt Ideal) (messages V c) := by
  show (cfg0.win 9).cut (grid0.coords t) ((dat0 V c).after 9 t) = _
  rw [after0_9]
  unfold out0_9
  rw [View.canon_unit_zero origin]
  simp only [View.ld_unit_zero (S := S4000x2) origin, View.ld_unit_zero (S := S4000x3) origin, View.ld_unit_zero (S := S7x32) origin,
    View.ld_unit_zero (S := S1x32) origin, View.ld_unit_zero (S := S32x32) origin, View.ld_unit_zero (S := S32x1) origin,
    View.ld_unit_zero (S := S1x1) origin]
  rw [weights0_block V c t, bias0_block V c t, weights1_block V c t, bias1_block V c t, weights2_block V c t, bias2_block V c t]
  funext y
  obtain ⟨p, q, rfl⟩ : ∃ (p : Fin 4000) (q : Fin 1), y = ix2 p q := ⟨y 0, y 1, eq_ix2 y⟩
  obtain rfl : q = 0 := Subsingleton.elim _ _
  have hN : t.val < 1000 := by have := t.isLt; have e : cfg0.N = 1000 := N_0; omega
  obtain ⟨-, -, -, -, -, -, -, -, -, -, -, -, -, -, -, -, -, -, e0, e1⟩ := index_facts t
  have hrow : (((cfg0.win 9).blk t).view.emb (ix2 p (0 : Fin 1)) 0).val = t.val * 4000 + p.val := by
    show win0_9.index t (0 : Fin 2) * 4000 + 1 * p.val = _; omega
  show k0_pay1 (k0_pay2 (iblk0 V c 0 t) (iblk0 V c 1 t) (iblk0 V c 2 t) (V c main_arg3) (V c main_v18) (V c main_arg5)
      (V c main_v19) (V c main_arg7)) (k0_pay3 (V c main_v20)) (ix2 p (0 : Fin 1))
    = messages V c (((cfg0.win 9).blk t).view.emb (ix2 p (0 : Fin 1)))
  refine (entry (iblk0 V c 0 t) (iblk0 V c 1 t) (iblk0 V c 2 t) (V c main_arg3) (V c main_v18) (V c main_arg5)
      (V c main_v19) (V c main_arg7) (V c main_v20) p).trans ?_
  unfold messages
  rw [sender_block V c t p 0 _ hrow, sender_block V c t p 1 _ hrow, receiver_block V c t p 0 _ hrow, receiver_block V c t p 1 _ hrow,
    attribute_block V c t p 0 _ hrow, attribute_block V c t p 1 _ hrow, attribute_block V c t p 2 _ hrow]

/-- An edge is in point t's block iff its row is among the block's 4000 rows. -/
theorem mem_block (t : Fin cfg0.N) (i : S4000000x1.Idx) :
    i ∈ ((cfg0.win 9).blk t).view.set ↔
      ∀ a : Fin 2, win0_9.index t a * S4000x1.size a ≤ (i a).val ∧ (i a).val < win0_9.index t a * S4000x1.size a + S4000x1.size a := by
  show i ∈ ((View.whole main_v21).slice (win0_9.rect t)).set ↔ _
  rw [View.set_slice_whole, Rect.mem_set_unit]
  exact Iff.rfl

/-- Every edge e lies in the block of point e / 4000, which is written back. -/
theorem covered (i : S4000000x1.Idx) :
    ∃ t : Fin cfg0.N, (cfg0.win 9).flush t = true ∧ i ∈ ((cfg0.win 9).blk t).view.set := by
  have hi0 : (i 0).val < 4000000 := (i 0).isLt
  have hi1 : (i 1).val < 1 := (i 1).isLt
  have hlt : (i 0).val / 4000 < cfg0.N := by rw [show cfg0.N = 1000 from N_0]; omega
  obtain ⟨t, ht⟩ : ∃ t : Fin cfg0.N, t.val = (i 0).val / 4000 := ⟨⟨_, hlt⟩, rfl⟩
  obtain ⟨-, -, -, -, -, -, -, -, -, -, -, -, -, -, -, -, -, -, e0, e1⟩ := index_facts t
  refine ⟨t, flush0_9 t, ?_⟩
  rw [mem_block]
  intro a
  match a with
  | ⟨0, _⟩ =>
    show win0_9.index t (0 : Fin 2) * 4000 ≤ (i 0).val ∧ (i 0).val < win0_9.index t (0 : Fin 2) * 4000 + 4000
    omega
  | ⟨1, _⟩ =>
    show win0_9.index t (1 : Fin 2) * 1 ≤ (i 1).val ∧ (i 1).val < win0_9.index t (1 : Fin 2) * 1 + 1
    omega

/-- After the pipeline the message column holds every edge's message. -/
theorem edge_array (c : Dev nD) :
    (Cert.KernelIdeal.Gen.dat0 (F := Ideal) V c).arrAt 9 cfg0.N = fun i => Cert.Spec.edgeCore
      ![V c main_v10 (ix2 (i 0) (0 : Fin 2)), V c main_v10 (ix2 (i 0) (1 : Fin 2)), V c main_v17 (ix2 (i 0) (0 : Fin 2)), V c main_v17 (ix2 (i 0) (1 : Fin 2)),
        V c main_arg2 (ix2 (i 0) (0 : Fin 3)), V c main_arg2 (ix2 (i 0) (1 : Fin 3)), V c main_arg2 (ix2 (i 0) (2 : Fin 3))]
      (V c main_arg3) (fun k => V c main_v18 (ix2 (0 : Fin 1) k)) (V c main_arg5) (fun k => V c main_v19 (ix2 (0 : Fin 1) k))
      (V c main_arg7) (fun k => V c main_v20 (ix2 (0 : Fin 1) k)) :=
  (dat0 V c).arrAt_eq_of_cover 9 (messages V c) (fun t _ => flushed_eq V c t) covered

end Cert.KernelIdeal.EdgeRegion

end
-- ==== Proof.KernelValue.lean ====
/-
  The idealized kernel's result as one function of the launch memory.

  The result buffer ends at what the node pipeline's write-backs leave: node n's result from the node features, the summed
  messages and the node perceptron's parameters as that pipeline finds them. The summed messages are the scatter-add of the
  edge pipeline's message column; edge e's message is computed from the gathered sender and receiver rows, which read the node
  features at the node the edge's start index names (read signed, clamped into range), from the edge's attributes and from the
  edge perceptron's parameters. The biases reach the pipelines reshaped to one-row matrices, whose entry (0, k) is the bias
  vector's entry k.
-/
import proofs.«116314_j14920716387062_1_alg».proof.Proof.KernelHost
import proofs.«116314_j14920716387062_1_alg».proof.Proof.NodeArray
import proofs.«116314_j14920716387062_1_alg».proof.Proof.EdgeArray
import proofs.«116314_j14920716387062_1_alg».proof.Proof.LibEdgeGather
import proofs.«116314_j14920716387062_1_alg».proof.Proof.Spec
import Idealize.ShloMosaic.Lib.ValueLayout

set_option maxRecDepth 16384

noncomputable section

namespace Cert.KernelIdeal.KernelValue

open Idealize.ShloMosaic Idealize.ShloMosaic.ValueIdx Idealize.ShloMosaic.TcCoe Idealize.SL.Sem
open Cert.KernelIdeal Cert.KernelIdeal.Gen Cert.KernelIdeal.HostValue

/-- The gathers' dimension numbers are those of a gather of whole rows through a column of start indices. -/
theorem gather_dims : gather_S250000x2_S4000000x1_S4000000x2_1_0_n_n_0_1_12
    = Cert.Lib.EdgeGather.rowDims 250000 4000000 2 gather_S250000x2_S4000000x1_S4000000x2_1_0_n_n_0_1_12_wf := rfl

/-- Entry (e, q) of a gathered row: feature q of the node start index e names. -/
theorem gathered_apply (a0 : S250000x2.Idx → EReal) (idx : IVec S4000000x1 32) (e : Fin 4000000) (q : Fin 2) :
    Host.gather gather_S250000x2_S4000000x1_S4000000x2_1_0_n_n_0_1_12 a0 idx (ix2 e q)
      = a0 (ix2 (Cert.Spec.node (idx (ix2 e (0 : Fin 1)))) q) := by
  rw [gather_dims]
  exact Cert.Lib.EdgeGather.row_apply (by decide) _ a0 idx e q

/-- Entry (0, k) of a bias vector reshaped to a one-row matrix is its entry k. -/
theorem bias32_apply (b : S32.Idx → EReal) (k : Fin 32) : shapeCast S1x32 b shapeCasts_S32_S1x32 (ix2 (0 : Fin 1) k) = b (ix1 k) :=
  shapeCast_a_1a_apply b shapeCasts_S32_S1x32 0 k
theorem bias1_apply (b : S1.Idx → EReal) (k : Fin 1) : shapeCast S1x1 b shapeCasts_S1_S1x1 (ix2 (0 : Fin 1) k) = b (ix1 k) :=
  shapeCast_a_1a_apply b shapeCasts_S1_S1x1 0 k

/-- The edge messages computed from gathered rows and one-row biases are the specification's message column. -/
theorem msg_of_gathered (a0 : S250000x2.Idx → EReal) (sidx ridx : IVec S4000000x1 32) (a2 : S4000000x3.Idx → EReal)
    (a3 : S7x32.Idx → EReal) (a4 : S32.Idx → EReal) (a5 : S32x32.Idx → EReal) (a6 : S32.Idx → EReal)
    (a7 : S32x1.Idx → EReal) (a8 : S1.Idx → EReal) :
    (fun i : S4000000x1.Idx => Cert.Spec.edgeCore
        ![Host.gather gather_S250000x2_S4000000x1_S4000000x2_1_0_n_n_0_1_12 a0 sidx (ix2 (i 0) (0 : Fin 2)), Host.gather gather_S250000x2_S4000000x1_S4000000x2_1_0_n_n_0_1_12 a0 sidx (ix2 (i 0) (1 : Fin 2)),
          Host.gather gather_S250000x2_S4000000x1_S4000000x2_1_0_n_n_0_1_12 a0 ridx (ix2 (i 0) (0 : Fin 2)), Host.gather gather_S250000x2_S4000000x1_S4000000x2_1_0_n_n_0_1_12 a0 ridx (ix2 (i 0) (1 : Fin 2)),
          a2 (ix2 (i 0) (0 : Fin 3)), a2 (ix2 (i 0) (1 : Fin 3)), a2 (ix2 (i 0) (2 : Fin 3))]
        a3 (fun k => shapeCast S1x32 a4 shapeCasts_S32_S1x32 (ix2 (0 : Fin 1) k))
        a5 (fun k => shapeCast S1x32 a6 shapeCasts_S32_S1x32 (ix2 (0 : Fin 1) k))
        a7 (fun k => shapeCast S1x1 a8 shapeCasts_S1_S1x1 (ix2 (0 : Fin 1) k)))
      = Cert.Spec.msg a0 sidx ridx a2 a3 a4 a5 a6 a7 a8 := by
  funext i
  obtain ⟨e, u, rfl⟩ : ∃ (e : Fin 4000000) (u : Fin 1), i = ix2 e u := ⟨i 0, i 1, eq_ix2 i⟩
  have h4 : (fun k : Fin 32 => shapeCast S1x32 a4 shapeCasts_S32_S1x32 (ix2 (0 : Fin 1) k)) = fun k => a4 (ix1 k) :=
    funext fun k => bias32_apply a4 k
  have h6 : (fun k : Fin 32 => shapeCast S1x32 a6 shapeCasts_S32_S1x32 (ix2 (0 : Fin 1) k)) = fun k => a6 (ix1 k) :=
    funext fun k => bias32_apply a6 k
  have h8 : (fun k : Fin 1 => shapeCast S1x1 a8 shapeCasts_S1_S1x1 (ix2 (0 : Fin 1) k)) = fun k => a8 (ix1 k) :=
    funext fun k => bias1_apply a8 k
  show Cert.Spec.edgeCore
      ![Host.gather gather_S250000x2_S4000000x1_S4000000x2_1_0_n_n_0_1_12 a0 sidx (ix2 e (0 : Fin 2)), Host.gather gather_S250000x2_S4000000x1_S4000000x2_1_0_n_n_0_1_12 a0 sidx (ix2 e (1 : Fin 2)),
        Host.gather gather_S250000x2_S4000000x1_S4000000x2_1_0_n_n_0_1_12 a0 ridx (ix2 e (0 : Fin 2)), Host.gather gather_S250000x2_S4000000x1_S4000000x2_1_0_n_n_0_1_12 a0 ridx (ix2 e (1 : Fin 2)),
        a2 (ix2 e (0 : Fin 3)), a2 (ix2 e (1 : Fin 3)), a2 (ix2 e (2 : Fin 3))]
      a3 (fun k => shapeCast S1x32 a4 shapeCasts_S32_S1x32 (ix2 (0 : Fin 1) k))
      a5 (fun k => shapeCast S1x32 a6 shapeCasts_S32_S1x32 (ix2 (0 : Fin 1) k))
      a7 (fun k => shapeCast S1x1 a8 shapeCasts_S1_S1x1 (ix2 (0 : Fin 1) k))
    = Cert.Spec.edgeCore (Cert.Spec.pairAt a0 sidx ridx a2 e) a3 (fun k => a4 (ix1 k)) a5 (fun k => a6 (ix1 k)) a7 (fun k => a8 (ix1 k))
  rw [h4, h6, h8, gathered_apply a0 sidx e 0, gathered_apply a0 sidx e 1, gathered_apply a0 ridx e 0, gathered_apply a0 ridx e 1]
  rfl

/-- The node results computed from one-row biases are the specification's result column. -/
theorem nodes_of_rows (a0 : S250000x2.Idx → EReal) (agg : S250000x1.Idx → EReal) (a9 : S3x32.Idx → EReal)
    (a10 : S32.Idx → EReal) (a11 : S32x1.Idx → EReal) (a12 : S1.Idx → EReal) :
    (fun i : S250000x1.Idx => Cert.Spec.nodeCore (a0 (ix2 (i 0) (0 : Fin 2)))
        ![a0 (ix2 (i 0) (0 : Fin 2)), a0 (ix2 (i 0) (1 : Fin 2)), agg (ix2 (i 0) (0 : Fin 1))]
        a9 (fun k => shapeCast S1x32 a10 shapeCasts_S32_S1x32 (ix2 (0 : Fin 1) k))
        a11 (fun k => shapeCast S1x1 a12 shapeCasts_S1_S1x1 (ix2 (0 : Fin 1) k)))
      = Cert.Spec.nodes a0 agg a9 a10 a11 a12 := by
  have h10 : (fun k : Fin 32 => shapeCast S1x32 a10 shapeCasts_S32_S1x32 (ix2 (0 : Fin 1) k)) = fun k => a10 (ix1 k) :=
    funext fun k => bias32_apply a10 k
  have h12 : (fun k : Fin 1 => shapeCast S1x1 a12 shapeCasts_S1_S1x1 (ix2 (0 : Fin 1) k)) = fun k => a12 (ix1 k) :=
    funext fun k => bias1_apply a12 k
  rw [h10, h12]
  rfl

variable (m : (ℓ : Loc nD τ sig) → Buf (Elt Ideal) ℓ) (ρ : Dev nD → PrngReg)

/-- The message column the edge pipeline leaves. -/
theorem messages (c : Dev nD) : (dat0 (V1 m ρ) c).arrAt 9 cfg0.N
    = Cert.Spec.msg (m ((c : Thread nD τ).loc main_arg0)) (startColumn (senders (m ((c : Thread nD τ).loc main_arg1)))) (startColumn (receivers (m ((c : Thread nD τ).loc main_arg1))))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.KernelIdeal.EdgeRegion.edge_array (V1 m ρ) c, edge_features0, edge_features1, edge_attrs, edge_w0, edge_w1, edge_w2,
    edge_b0, edge_b1, edge_b2]
  exact msg_of_gathered _ _ _ _ _ _ _ _ _ _

/-- The result buffer at the last boundary is the specification's function of the launch memory. -/
theorem value (c : Dev nD) : W4 m ρ c (Proc.devRef .tc main_v27)
    = Cert.Spec.out (scat (m ((c : Thread nD τ).loc main_arg1))) (m ((c : Thread nD τ).loc main_arg0)) (startColumn (senders (m ((c : Thread nD τ).loc main_arg1)))) (startColumn (receivers (m ((c : Thread nD τ).loc main_arg1))))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  rw [result_buffer, Cert.KernelIdeal.NodeRegion.node_array (V3 m ρ) c]
  unfold Cert.KernelIdeal.NodeRegion.results
  rw [node_features, node_messages, node_w0, node_w1, node_b0, node_b1, messages]
  exact nodes_of_rows _ _ _ _ _ _

end Cert.KernelIdeal.KernelValue

end
-- ==== Proof.RefCat.lean ====
/-
  Two joins of columns, read at an index.

  Five blocks of 4000000 rows — four single columns and one block of three columns — laid side by side make a
  4000000×7 array: column j of the result is column 0 of block j for j < 4, and column j − 4 of the fifth block for
  4 ≤ j < 7. Likewise three single columns of 250000 rows make a 250000×3 array whose column j is column 0 of block j.
  The row is never touched.
-/
import proofs.«116314_j14920716387062_1_alg».proof.Proof.Gen.ReferenceIdeal
import Idealize.ShloMosaic.Lib.Pipeline.Value
import Idealize.ShloMosaic.Lib.ValueIdx

noncomputable section

namespace Cert.ReferenceIdeal.RefValue

open Cert.ReferenceIdeal Idealize.ShloMosaic Idealize.ShloMosaic.ValueIdx

variable {α : Type}

/-! ### Four columns and a block of three, side by side -/

/-- Column 0 of the seven is column 0 of block 0. -/
theorem cat7_0 (h : Shape.Concatenates [S4000000x1, S4000000x1, S4000000x1, S4000000x1, S4000000x3] S4000000x7 1)
    (p0 p1 p2 p3 : S4000000x1.Idx → α) (p4 : S4000000x3.Idx → α) (e : Fin 4000000) :
    concatenate S4000000x7 1 [⟨S4000000x1, p0⟩, ⟨S4000000x1, p1⟩, ⟨S4000000x1, p2⟩, ⟨S4000000x1, p3⟩, ⟨S4000000x3, p4⟩] h (ix2 e (0 : Fin 7)) = p0 (ix2 e (0 : Fin 1)) := by
  refine concatenate_apply_piece (t := S4000000x7) (1 : Fin 2) [⟨S4000000x1, p0⟩, ⟨S4000000x1, p1⟩, ⟨S4000000x1, p2⟩, ⟨S4000000x1, p3⟩, ⟨S4000000x3, p4⟩] h
    (ix2 e (0 : Fin 7)) 0 (show 0 < 5 by omega) S4000000x1 p0 rfl rfl 0 rfl (ix2 e (0 : Fin 1)) (fun b hb => ?_) rfl
  match b with
  | ⟨0, _⟩ => rfl
  | ⟨1, _⟩ => exact absurd rfl hb

/-- Column 1 of the seven is column 0 of block 1. -/
theorem cat7_1 (h : Shape.Concatenates [S4000000x1, S4000000x1, S4000000x1, S4000000x1, S4000000x3] S4000000x7 1)
    (p0 p1 p2 p3 : S4000000x1.Idx → α) (p4 : S4000000x3.Idx → α) (e : Fin 4000000) :
    concatenate S4000000x7 1 [⟨S4000000x1, p0⟩, ⟨S4000000x1, p1⟩, ⟨S4000000x1, p2⟩, ⟨S4000000x1, p3⟩, ⟨S4000000x3, p4⟩] h (ix2 e (1 : Fin 7)) = p1 (ix2 e (0 : Fin 1)) := by
  refine concatenate_apply_piece (t := S4000000x7) (1 : Fin 2) [⟨S4000000x1, p0⟩, ⟨S4000000x1, p1⟩, ⟨S4000000x1, p2⟩, ⟨S4000000x1, p3⟩, ⟨S4000000x3, p4⟩] h
    (ix2 e (1 : Fin 7)) 1 (show 1 < 5 by omega) S4000000x1 p1 rfl rfl 1 rfl (ix2 e (0 : Fin 1)) (fun b hb => ?_) rfl
  match b with
  | ⟨0, _⟩ => rfl
  | ⟨1, _⟩ => exact absurd rfl hb

/-- Column 2 of the seven is column 0 of block 2. -/
theorem cat7_2 (h : Shape.Concatenates [S4000000x1, S4000000x1, S4000000x1, S4000000x1, S4000000x3] S4000000x7 1)
    (p0 p1 p2 p3 : S4000000x1.Idx → α) (p4 : S4000000x3.Idx → α) (e : Fin 4000000) :
    concatenate S4000000x7 1 [⟨S4000000x1, p0⟩, ⟨S4000000x1, p1⟩, ⟨S4000000x1, p2⟩, ⟨S4000000x1, p3⟩, ⟨S4000000x3, p4⟩] h (ix2 e (2 : Fin 7)) = p2 (ix2 e (0 : Fin 1)) := by
  refine concatenate_apply_piece (t := S4000000x7) (1 : Fin 2) [⟨S4000000x1, p0⟩, ⟨S4000000x1, p1⟩, ⟨S4000000x1, p2⟩, ⟨S4000000x1, p3⟩, ⟨S4000000x3, p4⟩] h
    (ix2 e (2 : Fin 7)) 2 (show 2 < 5 by omega) S4000000x1 p2 rfl rfl 2 rfl (ix2 e (0 : Fin 1)) (fun b hb => ?_) rfl
  match b with
  | ⟨0, _⟩ => rfl
  | ⟨1, _⟩ => exact absurd rfl hb

/-- Column 3 of the seven is column 0 of block 3. -/
theorem cat7_3 (h : Shape.Concatenates [S4000000x1, S4000000x1, S4000000x1, S4000000x1, S4000000x3] S4000000x7 1)
    (p0 p1 p2 p3 : S4000000x1.Idx → α) (p4 : S4000000x3.Idx → α) (e : Fin 4000000) :
    concatenate S4000000x7 1 [⟨S4000000x1, p0⟩, ⟨S4000000x1, p1⟩, ⟨S4000000x1, p2⟩, ⟨S4000000x1, p3⟩, ⟨S4000000x3, p4⟩] h (ix2 e (3 : Fin 7)) = p3 (ix2 e (0 : Fin 1)) := by
  refine concatenate_apply_piece (t := S4000000x7) (1 : Fin 2) [⟨S4000000x1, p0⟩, ⟨S4000000x1, p1⟩, ⟨S4000000x1, p2⟩, ⟨S4000000x1, p3⟩, ⟨S4000000x3, p4⟩] h
    (ix2 e (3 : Fin 7)) 3 (show 3 < 5 by omega) S4000000x1 p3 rfl rfl 3 rfl (ix2 e (0 : Fin 1)) (fun b hb => ?_) rfl
  match b with
  | ⟨0, _⟩ => rfl
  | ⟨1, _⟩ => exact absurd rfl hb

/-- Column 4 of the seven is column 0 of block 4. -/
theorem cat7_4 (h : Shape.Concatenates [S4000000x1, S4000000x1, S4000000x1, S4000000x1, S4000000x3] S4000000x7 1)
    (p0 p1 p2 p3 : S4000000x1.Idx → α) (p4 : S4000000x3.Idx → α) (e : Fin 4000000) :
    concatenate S4000000x7 1 [⟨S4000000x1, p0⟩, ⟨S4000000x1, p1⟩, ⟨S4000000x1, p2⟩, ⟨S4000000x1, p3⟩, ⟨S4000000x3, p4⟩] h (ix2 e (4 : Fin 7)) = p4 (ix2 e (0 : Fin 3)) := by
  refine concatenate_apply_piece (t := S4000000x7) (1 : Fin 2) [⟨S4000000x1, p0⟩, ⟨S4000000x1, p1⟩, ⟨S4000000x1, p2⟩, ⟨S4000000x1, p3⟩, ⟨S4000000x3, p4⟩] h
    (ix2 e (4 : Fin 7)) 4 (show 4 < 5 by omega) S4000000x3 p4 rfl rfl 4 rfl (ix2 e (0 : Fin 3)) (fun b hb => ?_) rfl
  match b with
  | ⟨0, _⟩ => rfl
  | ⟨1, _⟩ => exact absurd rfl hb

/-- Column 5 of the seven is column 1 of block 4. -/
theorem cat7_5 (h : Shape.Concatenates [S4000000x1, S4000000x1, S4000000x1, S4000000x1, S4000000x3] S4000000x7 1)
    (p0 p1 p2 p3 : S4000000x1.Idx → α) (p4 : S4000000x3.Idx → α) (e : Fin 4000000) :
    concatenate S4000000x7 1 [⟨S4000000x1, p0⟩, ⟨S4000000x1, p1⟩, ⟨S4000000x1, p2⟩, ⟨S4000000x1, p3⟩, ⟨S4000000x3, p4⟩] h (ix2 e (5 : Fin 7)) = p4 (ix2 e (1 : Fin 3)) := by
  refine concatenate_apply_piece (t := S4000000x7) (1 : Fin 2) [⟨S4000000x1, p0⟩, ⟨S4000000x1, p1⟩, ⟨S4000000x1, p2⟩, ⟨S4000000x1, p3⟩, ⟨S4000000x3, p4⟩] h
    (ix2 e (5 : Fin 7)) 4 (show 4 < 5 by omega) S4000000x3 p4 rfl rfl 4 rfl (ix2 e (1 : Fin 3)) (fun b hb => ?_) rfl
  match b with
  | ⟨0, _⟩ => rfl
  | ⟨1, _⟩ => exact absurd rfl hb

/-- Column 6 of the seven is column 2 of block 4. -/
theorem cat7_6 (h : Shape.Concatenates [S4000000x1, S4000000x1, S4000000x1, S4000000x1, S4000000x3] S4000000x7 1)
    (p0 p1 p2 p3 : S4000000x1.Idx → α) (p4 : S4000000x3.Idx → α) (e : Fin 4000000) :
    concatenate S4000000x7 1 [⟨S4000000x1, p0⟩, ⟨S4000000x1, p1⟩, ⟨S4000000x1, p2⟩, ⟨S4000000x1, p3⟩, ⟨S4000000x3, p4⟩] h (ix2 e (6 : Fin 7)) = p4 (ix2 e (2 : Fin 3)) := by
  refine concatenate_apply_piece (t := S4000000x7) (1 : Fin 2) [⟨S4000000x1, p0⟩, ⟨S4000000x1, p1⟩, ⟨S4000000x1, p2⟩, ⟨S4000000x1, p3⟩, ⟨S4000000x3, p4⟩] h
    (ix2 e (6 : Fin 7)) 4 (show 4 < 5 by omega) S4000000x3 p4 rfl rfl 4 rfl (ix2 e (2 : Fin 3)) (fun b hb => ?_) rfl
  match b with
  | ⟨0, _⟩ => rfl
  | ⟨1, _⟩ => exact absurd rfl hb

/-- The seven columns of row e, as one vector. -/
theorem cat7_apply (h : Shape.Concatenates [S4000000x1, S4000000x1, S4000000x1, S4000000x1, S4000000x3] S4000000x7 1)
    (p0 p1 p2 p3 : S4000000x1.Idx → α) (p4 : S4000000x3.Idx → α) (e : Fin 4000000) (j : Fin 7) :
    concatenate S4000000x7 1 [⟨S4000000x1, p0⟩, ⟨S4000000x1, p1⟩, ⟨S4000000x1, p2⟩, ⟨S4000000x1, p3⟩, ⟨S4000000x3, p4⟩] h (ix2 e j)
      = ![p0 (ix2 e (0 : Fin 1)), p1 (ix2 e (0 : Fin 1)), p2 (ix2 e (0 : Fin 1)), p3 (ix2 e (0 : Fin 1)),
          p4 (ix2 e (0 : Fin 3)), p4 (ix2 e (1 : Fin 3)), p4 (ix2 e (2 : Fin 3))] j := by
  match j with
  | ⟨0, _⟩ => exact cat7_0 h p0 p1 p2 p3 p4 e
  | ⟨1, _⟩ => exact cat7_1 h p0 p1 p2 p3 p4 e
  | ⟨2, _⟩ => exact cat7_2 h p0 p1 p2 p3 p4 e
  | ⟨3, _⟩ => exact cat7_3 h p0 p1 p2 p3 p4 e
  | ⟨4, _⟩ => exact cat7_4 h p0 p1 p2 p3 p4 e
  | ⟨5, _⟩ => exact cat7_5 h p0 p1 p2 p3 p4 e
  | ⟨6, _⟩ => exact cat7_6 h p0 p1 p2 p3 p4 e

/-! ### Three columns side by side -/

/-- Column 0 of the three is block 0. -/
theorem cat3_0 (h : Shape.Concatenates [S250000x1, S250000x1, S250000x1] S250000x3 1)
    (q0 q1 q2 : S250000x1.Idx → α) (n : Fin 250000) :
    concatenate S250000x3 1 [⟨S250000x1, q0⟩, ⟨S250000x1, q1⟩, ⟨S250000x1, q2⟩] h (ix2 n (0 : Fin 3)) = q0 (ix2 n (0 : Fin 1)) := by
  refine concatenate_apply_piece (t := S250000x3) (1 : Fin 2) [⟨S250000x1, q0⟩, ⟨S250000x1, q1⟩, ⟨S250000x1, q2⟩] h
    (ix2 n (0 : Fin 3)) 0 (show 0 < 3 by omega) S250000x1 q0 rfl rfl 0 rfl (ix2 n (0 : Fin 1)) (fun b hb => ?_) rfl
  match b with
  | ⟨0, _⟩ => rfl
  | ⟨1, _⟩ => exact absurd rfl hb

/-- Column 1 of the three is block 1. -/
theorem cat3_1 (h : Shape.Concatenates [S250000x1, S250000x1, S250000x1] S250000x3 1)
    (q0 q1 q2 : S250000x1.Idx → α) (n : Fin 250000) :
    concatenate S250000x3 1 [⟨S250000x1, q0⟩, ⟨S250000x1, q1⟩, ⟨S250000x1, q2⟩] h (ix2 n (1 : Fin 3)) = q1 (ix2 n (0 : Fin 1)) := by
  refine concatenate_apply_piece (t := S250000x3) (1 : Fin 2) [⟨S250000x1, q0⟩, ⟨S250000x1, q1⟩, ⟨S250000x1, q2⟩] h
    (ix2 n (1 : Fin 3)) 1 (show 1 < 3 by omega) S250000x1 q1 rfl rfl 1 rfl (ix2 n (0 : Fin 1)) (fun b hb => ?_) rfl
  match b with
  | ⟨0, _⟩ => rfl
  | ⟨1, _⟩ => exact absurd rfl hb

/-- Column 2 of the three is block 2. -/
theorem cat3_2 (h : Shape.Concatenates [S250000x1, S250000x1, S250000x1] S250000x3 1)
    (q0 q1 q2 : S250000x1.Idx → α) (n : Fin 250000) :
    concatenate S250000x3 1 [⟨S250000x1, q0⟩, ⟨S250000x1, q1⟩, ⟨S250000x1, q2⟩] h (ix2 n (2 : Fin 3)) = q2 (ix2 n (0 : Fin 1)) := by
  refine concatenate_apply_piece (t := S250000x3) (1 : Fin 2) [⟨S250000x1, q0⟩, ⟨S250000x1, q1⟩, ⟨S250000x1, q2⟩] h
    (ix2 n (2 : Fin 3)) 2 (show 2 < 3 by omega) S250000x1 q2 rfl rfl 2 rfl (ix2 n (0 : Fin 1)) (fun b hb => ?_) rfl
  match b with
  | ⟨0, _⟩ => rfl
  | ⟨1, _⟩ => exact absurd rfl hb

/-- The three columns of row n, as one vector. -/
theorem cat3_apply (h : Shape.Concatenates [S250000x1, S250000x1, S250000x1] S250000x3 1)
    (q0 q1 q2 : S250000x1.Idx → α) (n : Fin 250000) (j : Fin 3) :
    concatenate S250000x3 1 [⟨S250000x1, q0⟩, ⟨S250000x1, q1⟩, ⟨S250000x1, q2⟩] h (ix2 n j)
      = ![q0 (ix2 n (0 : Fin 1)), q1 (ix2 n (0 : Fin 1)), q2 (ix2 n (0 : Fin 1))] j := by
  match j with
  | ⟨0, _⟩ => exact cat3_0 h q0 q1 q2 n
  | ⟨1, _⟩ => exact cat3_1 h q0 q1 q2 n
  | ⟨2, _⟩ => exact cat3_2 h q0 q1 q2 n

end Cert.ReferenceIdeal.RefValue

end
-- ==== Proof.RefEdge.lean ====
/-
  The reference's message column, entry by entry.

  Edge e's row of the 4000000×7 input array is: the sender's two features and the receiver's two features, each read
  from the node array at the node the edge's start index names (read signed, clamped into 0 … 249999), then the edge's own
  three attributes. Three dense layers follow, each the sum over the inputs of input × weight plus the bias, the first
  two clipped below at zero. The biases are vectors repeated down the rows, so an entry sees only its column's bias.
  Nothing here uses more of the sums than their being sums over the contracted coordinate.
-/
import proofs.«116314_j14920716387062_1_alg».proof.Proof.Gen.ReferenceIdeal.Read
import proofs.«116314_j14920716387062_1_alg».proof.Proof.Spec
import proofs.«116314_j14920716387062_1_alg».proof.Proof.LibEdgeGather
import proofs.«116314_j14920716387062_1_alg».proof.Proof.RefCat

noncomputable section

open scoped BigOperators

namespace Cert.ReferenceIdeal.RefValue

open Cert.ReferenceIdeal Cert.ReferenceIdeal.Gen Idealize.ShloMosaic Idealize.ShloMosaic.ValueIdx

/-! ### The two columns of start indices -/

/-- The senders' start indices as a column: row 0 of the edge-index array, a negative index moved up by 250000. -/
def sidx (x1 : (⟨S2x4000000, .i32⟩ : BufTy).Contents (Elt Ideal)) : (⟨S4000000x1, .i32⟩ : BufTy).Contents (Elt Ideal) :=
  Read.val_main_v11 (F := Ideal) x1

/-- The receivers' start indices as a column: row 1 of the edge-index array, a negative index moved up by 250000. -/
def ridx (x1 : (⟨S2x4000000, .i32⟩ : BufTy).Contents (Elt Ideal)) : (⟨S4000000x1, .i32⟩ : BufTy).Contents (Elt Ideal) :=
  Read.val_main_v25 (F := Ideal) x1

/-- The program computes the senders' column twice, by the same operations. -/
theorem sidx_again (x1 : (⟨S2x4000000, .i32⟩ : BufTy).Contents (Elt Ideal)) : Read.val_main_v18 (F := Ideal) x1 = sidx x1 := rfl

/-- The program computes the receivers' column twice, by the same operations. -/
theorem ridx_again (x1 : (⟨S2x4000000, .i32⟩ : BufTy).Contents (Elt Ideal)) : Read.val_main_v32 (F := Ideal) x1 = ridx x1 := rfl

/-! ### Where each operation reads its operands -/

theorem idx_v0 (n : Fin 250000) : Read.idx_main_v0 (ix2 n (0 : Fin 1)) = ix2 n (0 : Fin 2) := funext fun a => Fin.ext (by match a with | ⟨0, _⟩ => rfl | ⟨1, _⟩ => rfl)
theorem idx_v1 (n : Fin 250000) : Read.idx_main_v1 (ix2 n (0 : Fin 1)) = ix2 n (1 : Fin 2) := funext fun a => Fin.ext (by match a with | ⟨0, _⟩ => rfl | ⟨1, _⟩ => rfl)
theorem lidx_v35 (e : Fin 4000000) (c : Fin 32) (k : Fin 7) : Read.lidx_main_v35 (ix2 e c) k = ix2 e k := funext fun a => Fin.ext (by match a with | ⟨0, _⟩ => rfl | ⟨1, _⟩ => rfl)
theorem ridx_v35 (e : Fin 4000000) (c : Fin 32) (k : Fin 7) : Read.ridx_main_v35 (ix2 e c) k = ix2 k c := funext fun a => Fin.ext (by match a with | ⟨0, _⟩ => rfl | ⟨1, _⟩ => rfl)
theorem idx_v37 (e : Fin 4000000) (c : Fin 32) : Read.idx_main_v37 (ix2 e c) = ix2 (0 : Fin 1) c := funext fun a => Fin.ext (by match a with | ⟨0, _⟩ => rfl | ⟨1, _⟩ => rfl)
theorem idx_v36 (u : Fin 1) (c : Fin 32) : Read.idx_main_v36 (ix2 u c) = ix1 c := funext fun a => Fin.ext (by match a with | ⟨0, _⟩ => rfl)
theorem lidx_v40 (e : Fin 4000000) (c : Fin 32) (k : Fin 32) : Read.lidx_main_v40 (ix2 e c) k = ix2 e k := funext fun a => Fin.ext (by match a with | ⟨0, _⟩ => rfl | ⟨1, _⟩ => rfl)
theorem ridx_v40 (e : Fin 4000000) (c : Fin 32) (k : Fin 32) : Read.ridx_main_v40 (ix2 e c) k = ix2 k c := funext fun a => Fin.ext (by match a with | ⟨0, _⟩ => rfl | ⟨1, _⟩ => rfl)
theorem idx_v42 (e : Fin 4000000) (c : Fin 32) : Read.idx_main_v42 (ix2 e c) = ix2 (0 : Fin 1) c := funext fun a => Fin.ext (by match a with | ⟨0, _⟩ => rfl | ⟨1, _⟩ => rfl)
theorem idx_v41 (u : Fin 1) (c : Fin 32) : Read.idx_main_v41 (ix2 u c) = ix1 c := funext fun a => Fin.ext (by match a with | ⟨0, _⟩ => rfl)
theorem lidx_v45 (e : Fin 4000000) (c : Fin 1) (k : Fin 32) : Read.lidx_main_v45 (ix2 e c) k = ix2 e k := funext fun a => Fin.ext (by match a with | ⟨0, _⟩ => rfl | ⟨1, _⟩ => rfl)
theorem ridx_v45 (e : Fin 4000000) (c : Fin 1) (k : Fin 32) : Read.ridx_main_v45 (ix2 e c) k = ix2 k c := funext fun a => Fin.ext (by match a with | ⟨0, _⟩ => rfl | ⟨1, _⟩ => rfl)
theorem idx_v47 (e : Fin 4000000) (c : Fin 1) : Read.idx_main_v47 (ix2 e c) = ix2 (0 : Fin 1) (0 : Fin 1) := funext fun a => Fin.ext (by match a with | ⟨0, _⟩ => rfl | ⟨1, _⟩ => rfl)
theorem idx_v46 (u : Fin 1) (c : Fin 1) : Read.idx_main_v46 (ix2 u c) = ix1 (0 : Fin 1) := funext fun a => Fin.ext (by match a with | ⟨0, _⟩ => rfl)

/-! ### The four columns read from the node array -/

/-- A column of the node array read through a column of start indices: row e is the node array's column at the node the
    start index names. -/
theorem gather_col (x : (⟨S250000x1, .f32⟩ : BufTy).Contents (Elt Ideal)) (idx : (⟨S4000000x1, .i32⟩ : BufTy).Contents (Elt Ideal))
    (e : Fin 4000000) :
    Host.gather gather_S250000x1_S4000000x1_S4000000x1_1_0_n_n_0_1_11 x idx (ix2 e (0 : Fin 1))
      = x (ix2 (Cert.Spec.node (idx (ix2 e (0 : Fin 1)))) (0 : Fin 1)) :=
  Cert.Lib.EdgeGather.row_apply (by decide) _ x idx e (0 : Fin 1)

/-- The sender's first feature. -/
theorem v12_apply (x0 : (⟨S250000x2, .f32⟩ : BufTy).Contents (Elt Ideal)) (x1 : (⟨S2x4000000, .i32⟩ : BufTy).Contents (Elt Ideal)) (e : Fin 4000000) :
    Read.val_main_v12 (F := Ideal) x0 x1 (ix2 e (0 : Fin 1)) = x0 (ix2 (Cert.Spec.node (sidx x1 (ix2 e (0 : Fin 1)))) (0 : Fin 2)) := by
  unfold Read.val_main_v12
  refine (gather_col _ _ e).trans ?_
  rw [Read.val_main_v0_apply, idx_v0]
  rfl

/-- The sender's second feature. -/
theorem v19_apply (x0 : (⟨S250000x2, .f32⟩ : BufTy).Contents (Elt Ideal)) (x1 : (⟨S2x4000000, .i32⟩ : BufTy).Contents (Elt Ideal)) (e : Fin 4000000) :
    Read.val_main_v19 (F := Ideal) x0 x1 (ix2 e (0 : Fin 1)) = x0 (ix2 (Cert.Spec.node (sidx x1 (ix2 e (0 : Fin 1)))) (1 : Fin 2)) := by
  unfold Read.val_main_v19
  refine (gather_col _ _ e).trans ?_
  rw [Read.val_main_v1_apply, idx_v1, sidx_again]

/-- The receiver's first feature. -/
theorem v26_apply (x0 : (⟨S250000x2, .f32⟩ : BufTy).Contents (Elt Ideal)) (x1 : (⟨S2x4000000, .i32⟩ : BufTy).Contents (Elt Ideal)) (e : Fin 4000000) :
    Read.val_main_v26 (F := Ideal) x0 x1 (ix2 e (0 : Fin 1)) = x0 (ix2 (Cert.Spec.node (ridx x1 (ix2 e (0 : Fin 1)))) (0 : Fin 2)) := by
  unfold Read.val_main_v26
  refine (gather_col _ _ e).trans ?_
  rw [Read.val_main_v0_apply, idx_v0]
  rfl

/-- The receiver's second feature. -/
theorem v33_apply (x0 : (⟨S250000x2, .f32⟩ : BufTy).Contents (Elt Ideal)) (x1 : (⟨S2x4000000, .i32⟩ : BufTy).Contents (Elt Ideal)) (e : Fin 4000000) :
    Read.val_main_v33 (F := Ideal) x0 x1 (ix2 e (0 : Fin 1)) = x0 (ix2 (Cert.Spec.node (ridx x1 (ix2 e (0 : Fin 1)))) (1 : Fin 2)) := by
  unfold Read.val_main_v33
  refine (gather_col _ _ e).trans ?_
  rw [Read.val_main_v1_apply, idx_v1, ridx_again]

/-- Row e of the joined array is the edge's seven inputs. -/
theorem v34_apply (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (e : Fin 4000000) (j : Fin 7) :
    Read.val_main_v34 (F := Ideal) x0 x1 x2 (ix2 e j) = Cert.Spec.pairAt x0 (sidx x1) (ridx x1) x2 e j := by
  unfold Read.val_main_v34
  refine (cat7_apply _ _ _ _ _ _ e j).trans ?_
  rw [v12_apply, v19_apply, v26_apply, v33_apply]
  rfl

/-! ### The three dense layers -/

/-- The first hidden layer: dense 7 → 32 of the seven inputs, clipped below at zero. -/
theorem v39_apply (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (e : Fin 4000000) (c : Fin 32) :
    Read.val_main_v39 (F := Ideal) x0 x1 x2 x3 x4 (ix2 e c)
      = Cert.Spec.relu (Cert.Spec.dense (Cert.Spec.pairAt x0 (sidx x1) (ridx x1) x2 e) x3 (fun k => x4 (ix1 k)) c) := by
  rw [Read.val_main_v39_apply, Read.val_main_v38_apply, Read.val_main_v35_apply, Read.val_main_v37_apply,
    Read.val_main_v36_apply, Read.val_main_call0_v0_apply, Read.val_main_call0_cst_apply, idx_v37, idx_v36]
  unfold Cert.Spec.relu Cert.Spec.dense Cert.Spec.zero
  rw [Ideal.maximumf_def, Ideal.addf_def, Ideal.ofBits_def]
  refine congrArg (fun s => max (s + x4 (ix1 c)) _) (Finset.sum_congr rfl fun k _ => ?_)
  rw [lidx_v35, ridx_v35, v34_apply]

/-- The second hidden layer: dense 32 → 32 of the first, clipped below at zero. -/
theorem v44_apply (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (e : Fin 4000000) (c : Fin 32) :
    Read.val_main_v44 (F := Ideal) x0 x1 x2 x3 x4 x5 x6 (ix2 e c)
      = Cert.Spec.relu (Cert.Spec.dense (fun k' => Cert.Spec.relu (Cert.Spec.dense (Cert.Spec.pairAt x0 (sidx x1) (ridx x1) x2 e)
          x3 (fun k => x4 (ix1 k)) k')) x5 (fun k => x6 (ix1 k)) c) := by
  rw [Read.val_main_v44_apply, Read.val_main_v43_apply, Read.val_main_v40_apply, Read.val_main_v42_apply,
    Read.val_main_v41_apply, Read.val_main_call1_v0_apply, Read.val_main_call1_cst_apply, idx_v42, idx_v41]
  conv_rhs => unfold Cert.Spec.relu Cert.Spec.dense Cert.Spec.zero
  rw [Ideal.maximumf_def, Ideal.addf_def, Ideal.ofBits_def]
  refine congrArg (fun s => max (s + x6 (ix1 c)) _) (Finset.sum_congr rfl fun k _ => ?_)
  rw [lidx_v40, ridx_v40, v39_apply]
  rfl

/-- The message: dense 32 → 1 of the second hidden layer. -/
theorem v48_apply (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (e : Fin 4000000) :
    Read.val_main_v48 (F := Ideal) x0 x1 x2 x3 x4 x5 x6 x7 x8 (ix2 e (0 : Fin 1))
      = Cert.Spec.edgeCore (Cert.Spec.pairAt x0 (sidx x1) (ridx x1) x2 e) x3 (fun k => x4 (ix1 k)) x5 (fun k => x6 (ix1 k))
          x7 (fun k => x8 (ix1 k)) := by
  rw [Read.val_main_v48_apply, Read.val_main_v45_apply, Read.val_main_v47_apply, Read.val_main_v46_apply, idx_v47, idx_v46]
  unfold Cert.Spec.edgeCore
  conv_rhs => unfold Cert.Spec.dense
  rw [Ideal.addf_def]
  refine congrArg (fun s => s + x8 (ix1 (0 : Fin 1))) (Finset.sum_congr rfl fun k _ => ?_)
  rw [lidx_v45, ridx_v45, v44_apply]
  rfl

/-- The reference's message column is the specification's. -/
theorem v48_eq (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) :
    Read.val_main_v48 (F := Ideal) x0 x1 x2 x3 x4 x5 x6 x7 x8 = Cert.Spec.msg x0 (sidx x1) (ridx x1) x2 x3 x4 x5 x6 x7 x8 := by
  funext i
  obtain ⟨e, rfl⟩ : ∃ e : Fin 4000000, i = ix2 e (0 : Fin 1) :=
    ⟨i 0, (eq_ix2 i).trans (congrArg (ix2 (i 0)) (Fin.ext (by
      have h : (i 1).val < 1 := (i 1).isLt
      show (i 1).val = 0
      omega)))⟩
  exact v48_apply x0 x1 x2 x3 x4 x5 x6 x7 x8 e

end Cert.ReferenceIdeal.RefValue

end
-- ==== Proof.RefNode.lean ====
/-
  The reference's result column, entry by entry, and the whole result.

  The messages are summed into their receivers by one scatter-add from the zero column through the column of receiver
  indices; it is carried here as a function of the message column and never opened. Node n's row of the 250000×3 input
  array is its two features and its summed messages. A dense layer 3 → 32 clipped below at zero and a dense layer 32 → 1
  give the update; the result is the larger of zero and first feature + update.
-/
import proofs.«116314_j14920716387062_1_alg».proof.Proof.RefEdge

noncomputable section

open scoped BigOperators

namespace Cert.ReferenceIdeal.RefValue

open Cert.ReferenceIdeal Cert.ReferenceIdeal.Gen Idealize.ShloMosaic Idealize.ShloMosaic.ValueIdx

/-- The sums of a column of 4000000 updates into 250000 nodes: a scatter-add from the zero column through the column of
    the receivers' indices (row 1 of the edge-index array, as it stands). -/
def scat (x1 : (⟨S2x4000000, .i32⟩ : BufTy).Contents (Elt Ideal)) (u : (⟨S4000000x1, .f32⟩ : BufTy).Contents (Elt Ideal)) :
    (⟨S250000x1, .f32⟩ : BufTy).Contents (Elt Ideal) :=
  Host.scatterAdd (F := Ideal) (φ := .f32) scatter_S250000x1_S4000000x1_S4000000x1_1_0_0_1 (Read.val_main_v49 (F := Ideal))
    (Read.val_main_v50 (F := Ideal) x1) u

/-- The summed messages are the sums of the specification's message column. -/
theorem v51_eq (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) :
    Read.val_main_v51 (F := Ideal) x0 x1 x2 x3 x4 x5 x6 x7 x8 = scat x1 (Cert.Spec.msg x0 (sidx x1) (ridx x1) x2 x3 x4 x5 x6 x7 x8) :=
  congrArg (scat x1) (v48_eq x0 x1 x2 x3 x4 x5 x6 x7 x8)

/-! ### Where each operation reads its operands -/

theorem lidx_v53 (n : Fin 250000) (c : Fin 32) (k : Fin 3) : Read.lidx_main_v53 (ix2 n c) k = ix2 n k := funext fun a => Fin.ext (by match a with | ⟨0, _⟩ => rfl | ⟨1, _⟩ => rfl)
theorem ridx_v53 (n : Fin 250000) (c : Fin 32) (k : Fin 3) : Read.ridx_main_v53 (ix2 n c) k = ix2 k c := funext fun a => Fin.ext (by match a with | ⟨0, _⟩ => rfl | ⟨1, _⟩ => rfl)
theorem idx_v55 (n : Fin 250000) (c : Fin 32) : Read.idx_main_v55 (ix2 n c) = ix2 (0 : Fin 1) c := funext fun a => Fin.ext (by match a with | ⟨0, _⟩ => rfl | ⟨1, _⟩ => rfl)
theorem idx_v54 (u : Fin 1) (c : Fin 32) : Read.idx_main_v54 (ix2 u c) = ix1 c := funext fun a => Fin.ext (by match a with | ⟨0, _⟩ => rfl)
theorem lidx_v58 (n : Fin 250000) (c : Fin 1) (k : Fin 32) : Read.lidx_main_v58 (ix2 n c) k = ix2 n k := funext fun a => Fin.ext (by match a with | ⟨0, _⟩ => rfl | ⟨1, _⟩ => rfl)
theorem ridx_v58 (n : Fin 250000) (c : Fin 1) (k : Fin 32) : Read.ridx_main_v58 (ix2 n c) k = ix2 k c := funext fun a => Fin.ext (by match a with | ⟨0, _⟩ => rfl | ⟨1, _⟩ => rfl)
theorem idx_v60 (n : Fin 250000) (c : Fin 1) : Read.idx_main_v60 (ix2 n c) = ix2 (0 : Fin 1) (0 : Fin 1) := funext fun a => Fin.ext (by match a with | ⟨0, _⟩ => rfl | ⟨1, _⟩ => rfl)
theorem idx_v59 (u : Fin 1) (c : Fin 1) : Read.idx_main_v59 (ix2 u c) = ix1 (0 : Fin 1) := funext fun a => Fin.ext (by match a with | ⟨0, _⟩ => rfl)

/-! ### The node layers -/

/-- Row n of the joined array: the node's two features and its summed messages. -/
theorem v52_apply (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (n : Fin 250000) (j : Fin 3) :
    Read.val_main_v52 (F := Ideal) x0 x1 x2 x3 x4 x5 x6 x7 x8 (ix2 n j) = ![x0 (ix2 n (0 : Fin 2)), x0 (ix2 n (1 : Fin 2)), scat x1 (Cert.Spec.msg x0 (sidx x1) (ridx x1) x2 x3 x4 x5 x6 x7 x8) (ix2 n (0 : Fin 1))] j := by
  unfold Read.val_main_v52
  refine (cat3_apply _ _ _ _ n j).trans ?_
  rw [Read.val_main_v0_apply, Read.val_main_v1_apply, idx_v0, idx_v1, v51_eq]

/-- The hidden layer: dense 3 → 32 of the three inputs, clipped below at zero. -/
theorem v57_apply (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (x9 : (⟨S3x32, .f32⟩ : BufTy).Contents (Elt Ideal)) (x10 : (⟨S32, .f32⟩ : BufTy).Contents (Elt Ideal)) (n : Fin 250000) (c : Fin 32) :
    Read.val_main_v57 (F := Ideal) x0 x1 x2 x3 x4 x5 x6 x7 x8 x9 x10 (ix2 n c)
      = Cert.Spec.relu (Cert.Spec.dense ![x0 (ix2 n (0 : Fin 2)), x0 (ix2 n (1 : Fin 2)), scat x1 (Cert.Spec.msg x0 (sidx x1) (ridx x1) x2 x3 x4 x5 x6 x7 x8) (ix2 n (0 : Fin 1))] x9 (fun k => x10 (ix1 k)) c) := by
  rw [Read.val_main_v57_apply, Read.val_main_v56_apply, Read.val_main_v53_apply, Read.val_main_v55_apply,
    Read.val_main_v54_apply, Read.val_main_call2_v0_apply, Read.val_main_call2_cst_apply, idx_v55, idx_v54]
  unfold Cert.Spec.relu Cert.Spec.dense Cert.Spec.zero
  rw [Ideal.maximumf_def, Ideal.addf_def, Ideal.ofBits_def]
  refine congrArg (fun s => max (s + x10 (ix1 c)) _) (Finset.sum_congr rfl fun k _ => ?_)
  rw [lidx_v53, ridx_v53, v52_apply]

/-- The result: the larger of zero and first feature + dense 32 → 1 of the hidden layer. -/
theorem v64_apply (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (x9 : (⟨S3x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal)) (n : Fin 250000) :
    Read.val_main_v64 (F := Ideal) x0 x1 x2 x3 x4 x5 x6 x7 x8 x9 x10 x11 x12 (ix2 n (0 : Fin 1))
      = Cert.Spec.nodeCore (x0 (ix2 n (0 : Fin 2))) ![x0 (ix2 n (0 : Fin 2)), x0 (ix2 n (1 : Fin 2)), scat x1 (Cert.Spec.msg x0 (sidx x1) (ridx x1) x2 x3 x4 x5 x6 x7 x8) (ix2 n (0 : Fin 1))]
          x9 (fun k => x10 (ix1 k)) x11 (fun k => x12 (ix1 k)) := by
  rw [Read.val_main_v64_apply, Read.val_main_v62_apply, Read.val_main_v61_apply, Read.val_main_v58_apply, Read.val_main_v60_apply,
    Read.val_main_v59_apply, Read.val_main_v63_apply, Read.val_main_cst_7_apply, Read.val_main_v0_apply, idx_v0, idx_v60, idx_v59]
  unfold Cert.Spec.nodeCore
  conv_rhs => unfold Cert.Spec.dense Cert.Spec.zero
  rw [Ideal.maximumf_def, Ideal.addf_def, Ideal.addf_def, Ideal.ofBits_def]
  refine congrArg (fun s => max (x0 (ix2 n (0 : Fin 2)) + (s + x12 (ix1 (0 : Fin 1)))) _) (Finset.sum_congr rfl fun k _ => ?_)
  rw [lidx_v58, ridx_v58, v57_apply]
  rfl

/-- The reference's result column is the specification's. -/
theorem v64_eq (x0 : (⟨S250000x2, .f32⟩ : BufTy).Contents (Elt Ideal)) (x1 : (⟨S2x4000000, .i32⟩ : BufTy).Contents (Elt Ideal)) (x2 : (⟨S4000000x3, .f32⟩ : BufTy).Contents (Elt Ideal)) (x3 : (⟨S7x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (x9 : (⟨S3x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal)) :
    Read.val_main_v64 (F := Ideal) x0 x1 x2 x3 x4 x5 x6 x7 x8 x9 x10 x11 x12
      = Cert.Spec.out (scat x1) x0 (sidx x1) (ridx x1) x2 x3 x4 x5 x6 x7 x8 x9 x10 x11 x12 := by
  funext i
  obtain ⟨n, rfl⟩ : ∃ n : Fin 250000, i = ix2 n (0 : Fin 1) :=
    ⟨i 0, (eq_ix2 i).trans (congrArg (ix2 (i 0)) (Fin.ext (by
      have h : (i 1).val < 1 := (i 1).isLt
      show (i 1).val = 0
      omega)))⟩
  exact v64_apply x0 x1 x2 x3 x4 x5 x6 x7 x8 x9 x10 x11 x12 n

/-- What the reference leaves in its result buffer is the specification's function of its thirteen arguments. -/
theorem res_eq (m : (ℓ : Loc nD τ sig) → Buf (Elt Ideal) ℓ) (c : Dev nD) :
    Cert.ReferenceIdeal.Value.res_main_v64 (F := Ideal) m c
      = Cert.Spec.out (scat (m ((c.tc : Thread nD τ).loc main_arg1)))
          (m ((c.tc : Thread nD τ).loc main_arg0))
          (sidx (m ((c.tc : Thread nD τ).loc main_arg1))) (ridx (m ((c.tc : Thread nD τ).loc main_arg1)))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12)) :=
  (Read.val_main_v64_eq (F := Ideal) m c).trans (v64_eq _ _ _ _ _ _ _ _ _ _ _ _ _)

end Cert.ReferenceIdeal.RefValue

end
-- ==== Proof.lean ====
/-
  Two programs for one step of a message-passing network on a graph of 250000 nodes and 4000000 edges compute the same
  function on the extended reals.

  Each edge's message is a three-layer perceptron of its sender's two features, its receiver's two features and its own three
  attributes; the messages are summed into their receivers; each node's new state is the larger of zero and its first feature
  plus a two-layer perceptron of its two features and its summed messages.
  The kernel gathers whole feature rows on the host, runs the edge perceptron in one pipeline over blocks of 4000 edges,
  scatter-adds on the host, and runs the node perceptron in a second pipeline over blocks of 5000 nodes; its products round
  their operands to bf16 first, which is the identity at the ideal values, and accumulate into zero. The reference cuts the
  feature columns apart, gathers each by itself, joins the seven columns and applies whole-array matrix products. Entry by entry
  both are the same sums of the same products: a row gather followed by a column cut reads the same entry as the column cut
  followed by a gather, a block's row p at grid point t is row (block size) · t + p of the array, and the scatter-add is one and
  the same function applied to equal message columns. No step needs the inputs to be finite.
  The kernel's frames are the generated ones; the reference's frame is its generated run with the result dropped; the
  idealization rewrote nothing.
-/
import proofs.«116314_j14920716387062_1_alg».proof.Defs
import proofs.«116314_j14920716387062_1_alg».proof.Proof.Gen.Kernel
import proofs.«116314_j14920716387062_1_alg».proof.Proof.Gen.Kernel.Skeleton
import proofs.«116314_j14920716387062_1_alg».proof.Proof.Gen.Kernel.Launch
import proofs.«116314_j14920716387062_1_alg».proof.Proof.Gen.Kernel.Points
import proofs.«116314_j14920716387062_1_alg».proof.Proof.Gen.Kernel.Frame
import proofs.«116314_j14920716387062_1_alg».proof.Proof.Gen.KernelIdeal
import proofs.«116314_j14920716387062_1_alg».proof.Proof.Gen.KernelIdeal.Skeleton
import proofs.«116314_j14920716387062_1_alg».proof.Proof.Gen.KernelIdeal.Launch
import proofs.«116314_j14920716387062_1_alg».proof.Proof.Gen.KernelIdeal.Points
import proofs.«116314_j14920716387062_1_alg».proof.Proof.Gen.KernelIdeal.Frame
import proofs.«116314_j14920716387062_1_alg».proof.Proof.Gen.ReferenceIdeal
import proofs.«116314_j14920716387062_1_alg».proof.Proof.Gen.Pre_finite_inputs
import proofs.«116314_j14920716387062_1_alg».proof.Proof.Gen.ReferenceIdeal.Run
import proofs.«116314_j14920716387062_1_alg».proof.Proof.Gen.ReferenceIdeal.Read
import proofs.«116314_j14920716387062_1_alg».proof.Proof.KernelRun
import proofs.«116314_j14920716387062_1_alg».proof.Proof.KernelValue
import proofs.«116314_j14920716387062_1_alg».proof.Proof.RefNode
import Idealize.ShloMosaic.Adequacy
import Idealize.ShloMosaic.Init

noncomputable section

namespace Cert.Proof

open Idealize.ShloMosaic Idealize.ShloMosaic.TcCoe Idealize.SL.Sem

/-! ## The two programs compute the index columns and the scatter-add by the same operations -/

/-- The sender start-index column: row 0 of the edge-index array, a negative index counted from the end. -/
theorem senders_agree (a1 : IVec Cert.KernelIdeal.S2x4000000 32) :
    Cert.ReferenceIdeal.RefValue.sidx a1 = Cert.KernelIdeal.HostValue.startColumn (Cert.KernelIdeal.HostValue.senders a1) := rfl

/-- The receiver start-index column: row 1, likewise. -/
theorem receivers_agree (a1 : IVec Cert.KernelIdeal.S2x4000000 32) :
    Cert.ReferenceIdeal.RefValue.ridx a1 = Cert.KernelIdeal.HostValue.startColumn (Cert.KernelIdeal.HostValue.receivers a1) := rfl

/-- The scatter-add into the zero column at the raw receiver indices. -/
theorem scatter_agree (a1 : IVec Cert.KernelIdeal.S2x4000000 32) :
    Cert.ReferenceIdeal.RefValue.scat a1 = Cert.KernelIdeal.HostValue.scat a1 := rfl

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the result array at the specification's function of
    the arguments. -/
theorem algebraic : Cert.algebraic_KernelIdeal_ReferenceIdeal := by
  intro m ρ m' ρ' _ hagree
  refine ⟨fun c => Cert.Spec.out (Cert.KernelIdeal.HostValue.scat (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (Cert.KernelIdeal.HostValue.startColumn (Cert.KernelIdeal.HostValue.senders (m ((c.tc : Thread Cert.KernelIdeal.nD Cert.KernelIdeal.τ).loc Cert.KernelIdeal.main_arg1))))
      (Cert.KernelIdeal.HostValue.startColumn (Cert.KernelIdeal.HostValue.receivers (m ((c.tc : Thread Cert.KernelIdeal.nD Cert.KernelIdeal.τ).loc Cert.KernelIdeal.main_arg1))))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KernelValue.value m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2,
      senders_agree, receivers_agree, scatter_agree]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
